-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S256x2000x100 : Shape := ⟨3, ![256, 2000, 100]⟩
abbrev S2000 : Shape := ⟨1, ![2000]⟩
abbrev S128 : Shape := ⟨1, ![128]⟩
abbrev S_ : Shape := ⟨0, ![]⟩

class Facts : Prop where
  bcast_S_S256x2000x100 : S_.BroadcastsInDim S256x2000x100 (![] : Fin 0 → Fin S256x2000x100.rank)
  reducesTo_S256x2000x100_S_d0_1_2 : S256x2000x100.ReducesTo [0, 1, 2] S_
  h_S_ : 0 < S_.numel
  bcast_S_S128 : S_.BroadcastsInDim S128 (![] : Fin 0 → Fin S128.rank)
  reducesTo_S128_S_d0 : S128.ReducesTo [0] S_
  bcast_S_S2000 : S_.BroadcastsInDim S2000 (![] : Fin 0 → Fin S2000.rank)
  reducesTo_S2000_S_d0 : S2000.ReducesTo [0] S_

variable [Facts]

def fn {F : FTy → Type} [FloatOps F] (main_arg0 : FVec F S256x2000x100 .f32) (main_arg1 : IVec S2000 32) (main_arg2 : FVec F S128 .f32) : IVec S_ 1 :=
  let main_v0 : FVec F S256x2000x100 .f32 := Host.absf main_arg0
  let main_cst : FVec F S_ .f32 := constant S_ .f32 0x7F800000#32
  let main_v1 : FVec F S256x2000x100 .f32 := broadcastInDim S256x2000x100 ![] bcast_S_S256x2000x100 main_cst
  let main_v2 : IVec S256x2000x100 1 := cmpf .olt main_v0 main_v1
  let main_c : IVec S_ 1 := constantI S_ 1 1#1
  let main_v3 : IVec S_ 1 := (fun x v => Host.reduce IntOp.andi x v reducesTo_S256x2000x100_S_d0_1_2 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S2000 32 := broadcastInDim S2000 ![] bcast_S_S2000 main_c_2
  let main_v10 : IVec S2000 1 := cmpi .sge main_arg1 main_v9
  let main_c_3 : IVec S_ 32 := constantI S_ 32 127#32
  let main_v11 : IVec S2000 32 := broadcastInDim S2000 ![] bcast_S_S2000 main_c_3
  let main_v12 : IVec S2000 1 := cmpi .sle main_arg1 main_v11
  let main_v13 : IVec S2000 1 := andi main_v10 main_v12
  let main_c_4 : IVec S_ 1 := constantI S_ 1 1#1
  let main_v14 : IVec S_ 1 := (fun x v => Host.reduce IntOp.andi x v reducesTo_S2000_S_d0 h_S_) main_v13 main_c_4
  let main_v15 : IVec S_ 1 := andi main_v8 main_v14
  main_v15
-- ==== Kernel.lean ====
abbrev S256x2000x100 : Shape := ⟨3, ![256, 2000, 100]⟩
abbrev S2000 : Shape := ⟨1, ![2000]⟩
abbrev S128 : Shape := ⟨1, ![128]⟩
abbrev S_ : Shape := ⟨0, ![]⟩
abbrev S16 : Shape := ⟨1, ![16]⟩
abbrev S256x100x2000 : Shape := ⟨3, ![256, 100, 2000]⟩
abbrev S1x2000 : Shape := ⟨2, ![1, 2000]⟩
abbrev S256x2000 : Shape := ⟨2, ![256, 2000]⟩
abbrev S8x100x2000 : Shape := ⟨3, ![8, 100, 2000]⟩
abbrev S8x2000 : Shape := ⟨2, ![8, 2000]⟩

abbrev nBuf : Table → Nat
  | .hbm => 7
  | .local .tc .vmem => 5
  | .local .scVector .vmem => 3
  | _ => 0

abbrev bufTy : (tb : Table) → Fin (nBuf tb) → BufTy
  | .hbm, ⟨0, _⟩ => ⟨S256x2000x100, .f32⟩
  | .hbm, ⟨1, _⟩ => ⟨S2000, .i32⟩
  | .hbm, ⟨2, _⟩ => ⟨S128, .f32⟩
  | .hbm, ⟨3, _⟩ => ⟨S2000, .f32⟩
  | .hbm, ⟨4, _⟩ => ⟨S256x100x2000, .f32⟩
  | .hbm, ⟨5, _⟩ => ⟨S1x2000, .f32⟩
  | .hbm, ⟨6, _⟩ => ⟨S256x2000, .f32⟩
  | .local .tc .vmem, ⟨0, _⟩ => ⟨S8x100x2000, .f32⟩
  | .local .tc .vmem, ⟨1, _⟩ => ⟨S8x100x2000, .f32⟩
  | .local .tc .vmem, ⟨2, _⟩ => ⟨S1x2000, .f32⟩
  | .local .tc .vmem, ⟨3, _⟩ => ⟨S8x2000, .f32⟩
  | .local .tc .vmem, ⟨4, _⟩ => ⟨S8x2000, .f32⟩
  | .local .scVector .vmem, ⟨0, _⟩ => ⟨S2000, .i32⟩
  | .local .scVector .vmem, ⟨1, _⟩ => ⟨S128, .f32⟩
  | .local .scVector .vmem, ⟨2, _⟩ => ⟨S2000, .f32⟩
  | _, _ => ⟨S256x2000x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c125_i32 : BitVec 32 := 125#32
  let v5 : BitVec 32 := Scalar.addi c0_i32_3 c125_i32
  let c1_i32 : BitVec 32 := 1#32
  ⟨c0_i32_3, v5, c1_i32⟩
def k0_off1 (k0_t1 : Fin k0_t1_loop.trips) : Fin 1 → Nat :=
  let c0_i32_3 : BitVec 32 := 0#32
  let c1_i32 : BitVec 32 := 1#32
  let arg8 : BitVec 32 := Scf.iv c0_i32_3 c1_i32 k0_t1
  let c16_i32 : BitVec 32 := 16#32
  let v6 : BitVec 32 := Scalar.muli arg8 c16_i32
  let v7 : Index := Scalar.indexCast v6
  ![v7.toNat]

def k0_chk1 (i : grid0.Coords) (v8 : IVec S16 32) : Prop :=
  (∀ (k0_h1 : k0_cond1 i = 1#1), ∀ a x, ((![v8] : Fin 1 → IVec S16 32) a x).toNat < S128.size a)
instance k0_chk1.dec : ∀ (i : grid0.Coords) (v8 : IVec S16 32), Decidable (k0_chk1 i v8) := fun i v8 => decidable_of_iff' _ (Iff.of_eq (k0_chk1.eq_1 i v8))
theorem k0_idx1_inb : ∀ (i : grid0.Coords) (v8 : IVec S16 32) (k0_hw1 : k0_chk1 i v8), ∀ (k0_h1 : k0_cond1 i = 1#1), ∀ a x, ((![v8] : Fin 1 → IVec S16 32) a x).toNat < S128.size a := fun i v8 k0_hw1 k0_h1 => k0_hw1 k0_h1
def k0_off2 (k0_t1 : Fin k0_t1_loop.trips) : Fin 1 → Nat :=
  let c0_i32_3 : BitVec 32 := 0#32
  let c1_i32 : BitVec 32 := 1#32
  let arg8 : BitVec 32 := Scf.iv c0_i32_3 c1_i32 k0_t1
  let c16_i32_5 : BitVec 32 := 16#32
  let v10 : BitVec 32 := Scalar.muli arg8 c16_i32_5
  let v11 : Index := Scalar.indexCast v10
  ![v11.toNat]
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S128 : 0 < S128.numel
  transposes_S256x2000x100_S256x100x2000_0_2_1 : S256x2000x100.Transposes [0, 2, 1] S256x100x2000
  shapeCasts_S2000_S1x2000 : S2000.ShapeCasts S1x2000
  inb_S8x100x2000_S8x100x2000_0_0_0 : ∀ a, (![0, 0, 0] : Fin 3 → Nat) a + S8x100x2000.size a ≤ S8x100x2000.size a
  h_S8x100x2000 : 0 < S8x100x2000.numel
  shapeCasts_S8x100x2000_S8x100x2000 : S8x100x2000.ShapeCasts S8x100x2000
  reduces_S8x100x2000_S8x2000 : S8x100x2000.Reduces [1] S8x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S8x2000 : S1x2000.Broadcasts S8x2000
  inb_S8x2000_S8x2000_0_0 : ∀ a, (![0, 0] : Fin 2 → Nat) a + S8x2000.size a ≤ S8x2000.size a
  h_S8x2000 : 0 < S8x2000.numel
  hcc0_scoped0 : 0 + S_.numel ≤ 8
  hcc0_scoped1 : 1 + S_.numel ≤ 8
  hcc0_scoped2 : 2 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 k0_t1) a + S16.size a ≤ S2000.size a
  k0_off2_inb : ∀ (i : grid0.Coords) (k0_t1 : Fin k0_t1_loop.trips), ∀ (k0_h1 : k0_cond1 i = 1#1), ∀ a, (k0_off2 k0_t1) a + S16.size a ≤ S2000.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x100x2000.size a ≤ S256x100x2000.size a
  hwx1_0 : ∀ i : grid1.Coords, EltTy.bits .f32 = 32 ∨ (Rect.block (s := S256x100x2000) S8x100x2000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2000.size a ≤ S1x2000.size a
  hwx1_1 : ∀ i : grid1.Coords, EltTy.bits .f32 = 32 ∨ (Rect.block (s := S1x2000) S1x2000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2000.size a ≤ S256x2000.size a
  hwx1_2 : ∀ i : grid1.Coords, EltTy.bits .f32 = 32 ∨ (Rect.block (s := S256x2000) S8x2000.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

abbrev win1_0 : Pipeline.Window sig grid1 :=
  Pipeline.Window.ofSpec (Memref.whole main_v1) S8x100x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x2000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x2000x100 : Shape := ⟨3, ![256, 2000, 100]⟩
abbrev S2000 : Shape := ⟨1, ![2000]⟩
abbrev S128 : Shape := ⟨1, ![128]⟩
abbrev S_ : Shape := ⟨0, ![]⟩
abbrev S256x2000 : Shape := ⟨2, ![256, 2000]⟩
abbrev S2000x1 : Shape := ⟨2, ![2000, 1]⟩
abbrev S1 : Shape := ⟨1, ![1]⟩
abbrev S1x1 : Shape := ⟨2, ![1, 1]⟩
abbrev S1x2000 : Shape := ⟨2, ![1, 2000]⟩

abbrev nBuf : Space → Nat
  | .hbm => 33
  | .vmem => 0
  | .smem => 0
  | _ => 0

abbrev bufTy : (tb : Table) → Fin (tcTables nBuf tb) → BufTy
  | .hbm, ⟨0, _⟩ => ⟨S256x2000x100, .f32⟩
  | .hbm, ⟨1, _⟩ => ⟨S2000, .i32⟩
  | .hbm, ⟨2, _⟩ => ⟨S128, .f32⟩
  | .hbm, ⟨3, _⟩ => ⟨S_, .f32⟩
  | .hbm, ⟨4, _⟩ => ⟨S256x2000, .f32⟩
  | .hbm, ⟨5, _⟩ => ⟨S_, .f32⟩
  | .hbm, ⟨6, _⟩ => ⟨S256x2000, .f32⟩
  | .hbm, ⟨7, _⟩ => ⟨S256x2000, .f32⟩
  | .hbm, ⟨8, _⟩ => ⟨S_, .i32⟩
  | .hbm, ⟨9, _⟩ => ⟨S2000, .i32⟩
  | .hbm, ⟨10, _⟩ => ⟨S2000, .i1⟩
  | .hbm, ⟨11, _⟩ => ⟨S_, .i32⟩
  | .hbm, ⟨12, _⟩ => ⟨S2000, .i32⟩
  | .hbm, ⟨13, _⟩ => ⟨S2000, .i32⟩
  | .hbm, ⟨14, _⟩ => ⟨S2000, .i32⟩
  | .hbm, ⟨15, _⟩ => ⟨S2000x1, .i32⟩
  | .hbm, ⟨16, _⟩ => ⟨S1, .i32⟩
  | .hbm, ⟨17, _⟩ => ⟨S_, .i32⟩
  | .hbm, ⟨18, _⟩ => ⟨S2000x1, .i32⟩
  | .hbm, ⟨19, _⟩ => ⟨S2000x1, .i1⟩
  | .hbm, ⟨20, _⟩ => ⟨S1x1, .i32⟩
  | .hbm, ⟨21, _⟩ => ⟨S2000x1, .i32⟩
  | .hbm, ⟨22, _⟩ => ⟨S2000x1, .i1⟩
  | .hbm, ⟨23, _⟩ => ⟨S2000x1, .i1⟩
  | .hbm, ⟨24, _⟩ => ⟨S_, .i1⟩
  | .hbm, ⟨25, _⟩ => ⟨S2000, .i1⟩
  | .hbm, ⟨26, _⟩ => ⟨S2000, .f32⟩
  | .hbm, ⟨27, _⟩ => ⟨S_, .f32⟩
  | .hbm, ⟨28, _⟩ => ⟨S2000, .f32⟩
  | .hbm, ⟨29, _⟩ => ⟨S2000, .f32⟩
  | .hbm, ⟨30, _⟩ => ⟨S1x2000, .f32⟩
  | .hbm, ⟨31, _⟩ => ⟨S256x2000, .f32⟩
  | .hbm, ⟨32, _⟩ => ⟨S256x2000, .f32⟩
  | _, _ => ⟨S256x2000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  reducesTo_S256x2000x100_S256x2000_d2 : S256x2000x100.ReducesTo [2] S256x2000
  h_S_ : 0 < S_.numel
  bcast_S_S256x2000 : S_.BroadcastsInDim S256x2000 (![] : Fin 0 → Fin S256x2000.rank)
  bcast_S_S2000 : S_.BroadcastsInDim S2000 (![] : Fin 0 → Fin S2000.rank)
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  reducesTo_S2000x1_S2000_d1 : S2000x1.ReducesTo [1] S2000
  bcast_S2000_S1x2000_1 : S2000.BroadcastsInDim S1x2000 (![1] : Fin 1 → Fin S1x2000.rank)
  bcast_S1x2000_S256x2000_0_1 : S1x2000.BroadcastsInDim S256x2000 (![0, 1] : Fin 2 → Fin S256x2000.rank)
  gather_S128_S2000x1_S2000_n_0_n_n_0_1_1_wf : GatherDims.WF S128 S2000x1 S2000 [] [0] [] [0] [] 1 ![1]

variable [Facts₀]

def gather_S128_S2000x1_S2000_n_0_n_n_0_1_1 : GatherDims S128 S2000x1 S2000 where
  offsetDims := []
  collapsedSliceDims := [0]
  operandBatchingDims := []
  startIndicesBatchingDims := []
  startIndexMap := [0]
  indexVectorDim := 1
  sliceSizes := ![1]
  wf := gather_S128_S2000x1_S2000_n_0_n_n_0_1_1_wf

class Facts : Prop extends Facts₀ where

variable [Facts]
-- ==== Proof.KI.Common.lean ====
/-
  The program as the launch theorem reads it, and the ghost state the proof is carried in.

  The device runs three kinds of threads side by side: the TensorCore (the host operations, the start of the gather
  and the wait for it, then the pipelined mean), two sequencers and thirty-two vector subcores, of which ONE — subcore 0
  of SparseCore 0 — gathers the bias row and the others return at once. Three ghost components ride along: the
  handshakes between the TensorCore, the sequencers and the subcores; the pipeline's staging cells; and plain counters
  for the gathering subcore's three local copies, each waited for before the next starts.
-/
import proofs.«206730_g8289286881952_cont_9to1_m_1135_20_alg».proof.Proof.Gen.KernelIdeal
import proofs.«206730_g8289286881952_cont_9to1_m_1135_20_alg».proof.Proof.Gen.KernelIdeal.Skeleton
import proofs.«206730_g8289286881952_cont_9to1_m_1135_20_alg».proof.Proof.Gen.KernelIdeal.Launch
import proofs.«206730_g8289286881952_cont_9to1_m_1135_20_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the local copies' counters -/

abbrev UH : Type := URounds (GSem nD τ sig) ℕ
abbrev UP : Type := URounds (GSem nD τ sig) Unit
abbrev UU : Type := UH × (UP × Counters)

/-- The model the whole proof is stated in. -/
abbrev MM (F : FTy → Type) : Type := MT nD τ sig (HIx 1) (Elt F) ℕ UU ℕ

/-- The handshakes' rounds: the left component. -/
abbrev EH : Emb UH (MM F) := embL
/-- The pipeline's rounds: the left of the right component. -/
def EP : Emb UP (MM F) := (Emb.inl : Emb UP (UP × Counters)).trans embR

instance EP_landsIn : (EP : Emb UP (MM F)).LandsIn (upEmb : UEmb _ (MM F)) := by unfold EP embR; infer_instance

/-- The pipeline's admissible tables: it has none. -/
abbrev adm : (p : Fin 1) → (pcfgs (F := F) p).Adm := fun p => (cfgs p).toPCfg_adm

end Cert.Proof.KI

end
-- ==== Proof.Spec.lean ====
/-
  The function both programs compute, stated once over literal shapes and over no program.

  A cell `c` (of 256) has, per gene `g` (of 2000), an embedding of 100 components. The result at `(c, g)` is the MEAN of
  those 100 components plus a per-gene bias, and the bias of gene `g` is the entry of a 128-entry table that the gene's
  index word names. The mean is written as the sum times the rational 1/100 (on the extended reals the quotient by 100
  is that product: `Ideal.div_coe`).
-/
import Idealize.ShloMosaic.PureOps.Ideal
import Idealize.ShloMosaic.Lib.ValueIdx

noncomputable section

namespace Cert.Spec

open Idealize.ShloMosaic Idealize.ShloMosaic.ValueIdx
open scoped BigOperators

/-- The embeddings `[cell, gene, component]`, the index words and the result `[gene]`-long rows, the bias table, the result `[cell, gene]`. -/
abbrev SX : Shape := ⟨3, ![256, 2000, 100]⟩
abbrev SG : Shape := ⟨1, ![2000]⟩
abbrev SB : Shape := ⟨1, ![128]⟩
abbrev SO : Shape := ⟨2, ![256, 2000]⟩

/-- The bias row: gene `g` takes the table entry its index word names — the word read unsigned, and held to the table's
    last entry so that the function is total (where every word is below 128 the bound is never met). Over any element type. -/
def biasRow {α : Type} (ix : SG.Idx → BitVec 32) (b : SB.Idx → α) : SG.Idx → α :=
  fun g => b (ix1 ⟨min (ix g).toNat 127, by omega⟩)

/-- Where the index word is in range, the bound is not met. -/
theorem biasRow_of_lt {α : Type} (ix : SG.Idx → BitVec 32) (b : SB.Idx → α) (g : SG.Idx) (h : (ix g).toNat < 128) :
    biasRow ix b g = b (ix1 ⟨(ix g).toNat, h⟩) := by
  unfold biasRow
  congr 2
  exact Fin.ext (Nat.min_eq_left (by omega))

/-- The result: at cell `c`, gene `g`, the sum of the 100 components times 1/100, plus the gene's bias. -/
def G (x : SX.Idx → EReal) (ix : SG.Idx → BitVec 32) (b : SB.Idx → EReal) : SO.Idx → EReal :=
  fun j => (∑ e : Fin 100, x (ix3 (n0 := 256) (n1 := 2000) (j 0) (j 1) e)) * ((1 / 100 : ℝ) : EReal)
    + biasRow ix b (ix1 (n := 2000) (j 1))

end Cert.Spec

end
-- ==== Proof.KI.Tile.lean ====
/-
  The gathering subcore's task, and the idle subcores'.

  Subcore 0 of SparseCore 0 copies the 2000 index words and the 128-entry bias table into its own memory, then walks the
  indices sixteen at a time: trip `k` reads words `16k … 16k+15`, checks that each names a table entry, reads the
  table at those sixteen places and stores the sixteen values at positions `16k … 16k+15` of a third scratch. After 125
  trips that scratch holds the whole bias row, which one last copy writes out. Every other subcore returns at once.
-/
import proofs.«206730_g8289286881952_cont_9to1_m_1135_20_alg».proof.Proof.KI.Common
import proofs.«206730_g8289286881952_cont_9to1_m_1135_20_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Spec (biasRow)

variable {F : FTy → Type}

local notation "𝕄" => MM F

variable (m : (ℓ : Loc nD τ sig) → Buf (Elt F) ℓ) (ρ : Dev nD → PrngReg)

/-! ## The arrays the gather touches -/

abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0

/-- The bias row of the launch memory: gene `g` takes the table entry its index word names. -/
def rowOf (d : Dev nD) : Buf (Elt F) (v0Loc d) := biasRow (m (a1Loc d)) (m (a2Loc d))

variable [FloatOps F] [Named F]

abbrev a1V : Memref sig .scVector .hbm S2000 .i32 := Memref.whole main_arg1_scv
abbrev a2V : Memref sig .scVector .hbm S128 .f32 := Memref.whole main_arg2_scv
abbrev v0V : Memref sig .scVector .hbm S2000 .f32 := Memref.whole main_v0_scv
abbrev sI : Memref sig .scVector .vmem S2000 .i32 := Memref.whole cc0_scratch0
abbrev sB : Memref sig .scVector .vmem S128 .f32 := Memref.whole cc0_scratch1
abbrev sO : Memref sig .scVector .vmem S2000 .f32 := Memref.whole cc0_scratch2

abbrev a1Pts (d : Dev nD) : sProp 𝕄 := a1Loc d ↦{fullShare} m (a1Loc d)
abbrev a2Pts (d : Dev nD) : sProp 𝕄 := a2Loc d ↦{fullShare} m (a2Loc d)
abbrev v0Pts (d : Dev nD) (f : Buf (Elt F) (v0Loc d)) : sProp 𝕄 := v0Loc d ↦{fullShare} f

/-- Every index word names a table entry. -/
def IdxOK : Prop := ∀ (d : Dev nD) g, ((m (a1Loc d)) g).toNat < 128

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cBcell (d : Dev nD) (c : Fin τ.nSC) (i : Fin τ.nSub) : GSem nD τ sig := (V d c i, .dma cc0_scoped2.sem)

omit [FloatOps F] [Named F] in
theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc0_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc0_scoped2.sem : SemLoc sig).isScoped .scVector = true; decide⟩⟩⟩)]

omit [FloatOps F] [Named F] in
/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] [Named F] in
/-- The arrays as a subcore's memrefs address them are the device's arrays. -/
theorem pts_a1 (f : Buf (Elt F) (a1Loc d)) :
    ((a1V).view.loc (V d (cV L) (jV L)) ↦{fullShare} f : sProp 𝕄) = a1Loc d ↦{fullShare} f := by
  simp only [Memref.view_whole, View.set_whole]
omit [FloatOps F] [Named F] in
theorem pts_a2 (f : Buf (Elt F) (a2Loc d)) :
    ((a2V).view.loc (V d (cV L) (jV L)) ↦{fullShare} f : sProp 𝕄) = a2Loc d ↦{fullShare} f := by
  simp only [Memref.view_whole, View.set_whole]
omit [FloatOps F] [Named F] in
theorem pts_v0 (f : Buf (Elt F) (v0Loc d)) :
    ((v0V).view.loc (V d (cV L) (jV L)) ↦{fullShare} f : sProp 𝕄) = v0Loc d ↦{fullShare} f := by
  simp only [Memref.view_whole, View.set_whole]
omit [FloatOps F] [Named F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] [Named F] in
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
omit [FloatOps F] [Named F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The subcore's thread. -/
abbrev thrV (d : Dev nD) (L : grid0.Coords) : Thread nD τ := V d (cV L) (jV L)

/-- The index words and the table as the subcore's scratches hold them after the two copies: the arrays' own contents. -/
def idxCopy (d : Dev nD) (L : grid0.Coords) : Buf (Elt F) ((V d (cV L) (jV L)).loc cc0_scratch0) := fun j => m (a1Loc d) j
def tabCopy (d : Dev nD) (L : grid0.Coords) : Buf (Elt F) ((V d (cV L) (jV L)).loc cc0_scratch1) := fun j => m (a2Loc d) j

/-- The loop's invariant before trip `k`: the two copied scratches untouched, the third holding the bias row at every
    position below `16k`; what the subcore owes unchanged, its recorded waits grown only by waits of its own. -/
def inv (d : Dev nD) (L : grid0.Coords) (s0 : Buf (Elt F) ((V d (cV L) (jV L)).loc cc0_scratch0)) (s1 : Buf (Elt F) ((V d (cV L) (jV L)).loc cc0_scratch1))
    (O : CellTallies nD τ sig (HIx 1)) (W : Waits sig (HIx 1)) (k : Nat) (_ : PUnit) : sProp 𝕄 :=
  iprop(Transfers.MayWaits (V d (cV L) (jV L)) (none : HIx 1) O
    ∗ ((sI).view.loc (V d (cV L) (jV L)) ↦{fullShare} s0)
    ∗ ((sB).view.loc (V d (cV L) (jV L)) ↦{fullShare} s1)
    ∗ (∃ f : Buf (Elt F) ((V d (cV L) (jV L)).loc cc0_scratch2), ⌜∀ j : S2000.Idx, (j 0).val < 16 * k → f j = biasRow s0 s1 j⌝ ∗ (sO).view.loc (V d (cV L) (jV L)) ↦{fullShare} f)
    ∗ ∃ W', ⌜∀ p ∈ W', p ∈ W ∨ p.2 = none⌝ ∗ owes (V d (cV L) (jV L)) O W')

omit [FloatOps F] [Named F] in
/-- The table scratch as the indexed read addresses it. -/
theorem pts_sB_access (f : Buf (Elt F) ((V d (cV L) (jV L)).loc cc0_scratch1)) :
    (((sB).access (.whole S128)).loc (V d (cV L) (jV L)) ↦{fullShare} f : sProp 𝕄) = (sB).view.loc (V d (cV L) (jV L)) ↦{fullShare} f := rfl

/-- A trip's check passes: the sixteen words it read are index words of the launch memory, each below 128. -/
theorem chk_of (k : Fin k0_t1_loop.trips) (k0_h1 : k0_cond1 L = 1#1) (hpre : IdxOK m) :
    k0_chk1 L (View.readAt (Elt F) (sI).view (Rect.unit (s := S2000) (k0_off1 k) S16.size (k0_off1_inb L k k0_h1)).toLoadRect (idxCopy m d L)) := by
  intro _ a x
  obtain rfl : a = 0 := Subsingleton.elim _ _
  show (View.readAt (Elt F) (sI).view (Rect.unit (s := S2000) (k0_off1 k) S16.size (k0_off1_inb L k k0_h1)).toLoadRect (idxCopy m d L) x).toNat < 128
  simp only [View.readAt_apply, Memref.view_whole, View.read_whole]
  exact hpre d _

/-- One trip extends the bias row by sixteen positions: a position inside `[16k, 16k+16)` reads the table at the word the
    trip loaded for it, which is that position's own index word; a position below keeps what the earlier trips left. -/
theorem step_val (k : Fin k0_t1_loop.trips) (k0_h1 : k0_cond1 L = 1#1) (hpre : IdxOK m)
    (f : Buf (Elt F) ((V d (cV L) (jV L)).loc cc0_scratch2))
    (hf : ∀ j : S2000.Idx, (j 0).val < 16 * k.val → f j = biasRow (idxCopy m d L) (tabCopy m d L) j)
    (h : ∀ a x, ((![View.readAt (Elt F) (sI).view (Rect.unit (s := S2000) (k0_off1 k) S16.size (k0_off1_inb L k k0_h1)).toLoadRect (idxCopy m d L)] : Fin 1 → IVec S16 32) a x).toNat < S128.size a)
    (j : S2000.Idx) (hj : (j 0).val < 16 * (k.val + 1)) :
    (sO).view.writes (Elt F) f
      [⟨Rect.unit (s := S2000) (k0_off2 k) S16.size (k0_off2_inb L k k0_h1),
        loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h⟩] j
      = biasRow (idxCopy m d L) (tabCopy m d L) j := by
  have hk : k.val < 125 := Nat.lt_of_lt_of_le k.isLt k0_t1_abs.2.1
  have hjlt : (j 0).val < 2000 := (j 0).isLt
  by_cases hin : 16 * k.val ≤ (j 0).val
  · -- inside the sixteen positions the trip writes
    have hx : (j 0).val - 16 * k.val < 16 := by omega
    let x : S16.Idx := ValueIdx.ix1 (n := 16) ⟨(j 0).val - 16 * k.val, hx⟩
    have hemb : (Rect.unit (s := S2000) (k0_off2 k) S16.size (k0_off2_inb L k k0_h1)).emb x = j := by
      funext a
      obtain rfl : a = 0 := Subsingleton.elim _ _
      apply Fin.ext
      show k0_off2 k 0 + 1 * (x 0).val = (j 0).val
      rw [k0_off2_eq]
      show 16 * k.val + 1 * ((j 0).val - 16 * k.val) = (j 0).val
      omega
    have hr := View.read_writes_cons_emb (v := (sO).view) (Val := Elt F) (f := f)
      (Rect.unit (s := S2000) (k0_off2 k) S16.size (k0_off2_inb L k k0_h1))
      (loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h) [] x
    rw [hemb] at hr
    simp only [Memref.view_whole, View.read_whole] at hr
    refine hr.trans ?_
    have hidx : (Rect.unit (s := S2000) (k0_off1 k) S16.size (k0_off1_inb L k k0_h1)).toLoadRect.idx x = j := by
      funext a
      obtain rfl : a = 0 := Subsingleton.elim _ _
      apply Fin.ext
      rw [LoadRect.idx_apply]
      show k0_off1 k 0 + 1 * (x 0).val = (j 0).val
      rw [k0_off1_eq]
      show 16 * k.val + 1 * ((j 0).val - 16 * k.val) = (j 0).val
      omega
    have hw : View.readAt (Elt F) (sI).view (Rect.unit (s := S2000) (k0_off1 k) S16.size (k0_off1_inb L k k0_h1)).toLoadRect (idxCopy m d L) x = idxCopy m d L j := by
      simp only [View.readAt_apply, Memref.view_whole, View.read_whole]
      rw [hidx]
    have hlt : ((idxCopy m d L) j).toNat < 128 := hpre d _
    rw [Cert.Spec.biasRow_of_lt _ _ _ hlt]
    unfold loadIdx
    show (tabCopy m d L) _ = (tabCopy m d L) _
    congr 1
    funext a
    have ha : a = ⟨0, Nat.one_pos⟩ := Fin.ext (Nat.lt_one_iff.mp a.isLt)
    subst ha
    apply Fin.ext
    show 0 + 1 * (View.readAt (Elt F) (sI).view (Rect.unit (s := S2000) (k0_off1 k) S16.size (k0_off1_inb L k k0_h1)).toLoadRect (idxCopy m d L) x).toNat = ((idxCopy m d L) j).toNat
    rw [hw]
    omega
  · -- below: the earlier trips' value is kept
    have hlow : (j 0).val < 16 * k.val := by omega
    have hr := View.read_writes_apply_of_forall_not_mem (v := (sO).view) (Val := Elt F) (f := f) j
      [⟨Rect.unit (s := S2000) (k0_off2 k) S16.size (k0_off2_inb L k k0_h1),
        loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h⟩]
      (by
        intro p hp
        rw [List.mem_singleton] at hp
        subst hp
        intro hmem
        have h1 := (Rect.mem_set_unit (s := S2000) (off := k0_off2 k) (size := S16.size) (inb := k0_off2_inb L k k0_h1) (i := j)).mp hmem (⟨0, Nat.one_pos⟩ : Fin 1)
        rw [k0_off2_eq] at h1
        have h2 : 16 * k.val ≤ (j 0).val := h1.1
        omega)
    simp only [Memref.view_whole, View.read_whole] at hr
    exact hr.trans (hf j hlow)

/-- After the last trip the scratch is the bias row everywhere, and the copy-out writes exactly that. -/
theorem out_val (f : Buf (Elt F) ((V d (cV L) (jV L)).loc cc0_scratch2))
    (hf : ∀ j : S2000.Idx, (j 0).val < 16 * k0_t1_loop.trips → f j = biasRow (idxCopy m d L) (tabCopy m d L) j)
    (g : Buf (Elt F) (v0Loc d)) (w : S2000.Idx → Elt F .f32) (hw : w = fun j => f j) :
    View.write (Elt F) (v0V).view g w Finset.univ = rowOf m d := by
  subst hw
  rw [View.write_whole_univ]
  funext j
  have ht : k0_t1_loop.trips = 125 := by decide
  have hj : (j 0).val < 2000 := (j 0).isLt
  exact hf j (by rw [ht]; omega)

/-- The gathering subcore's task. -/
theorem tile_gather (hF : (K (F := F)).Facts) (k0_h1 : k0_cond1 L = 1#1) (hpre : IdxOK m) (O : CellTallies nD τ sig (HIx 1)) (W : Waits sig (HIx 1)) (hO : ∀ g, O g none = 0) :
    iprop(levAts (K (F := F)).L (K (F := F)).lev ∗ emp
        ∗ (a1Pts m d ∗ a2Pts m d ∗ v0Pts d (m (v0Loc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__bias_gather_sc L a1V (Memref.isWhole_whole _) a2V (Memref.isWhole_whole _) v0V (Memref.isWhole_whole _)
            sI (Memref.isWhole_whole _) sB (Memref.isWhole_whole _) sO (Memref.isWhole_whole _) cc0_scoped0 cc0_scoped1 cc0_scoped2)
          fun _ => iprop((a1Pts m d ∗ a2Pts m d ∗ v0Pts d (rowOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__bias_gather_sc_eq_skeleton]; unfold cc0__bias_gather_sc_skel
  rw [(K (F := F)).scopedBufs_V hF d (cV L) (jV L), SparseCore.Cfg.scopedSems0_V (Val := Elt F) d (cV L) (jV L), ownSems0_V, ownBufs_V]
  iintro ⟨#Hlv, -, ⟨Ha1, Ha2, Hv0⟩, ⟨⟨%fs, Hs⟩, ⟨%fx, Hsx⟩, ⟨%fc, Hc⟩, Hbufs⟩, ⟨HsemA, HsemX, HsemB, Hsems⟩, HO⟩
  ihave Hmw := ((K (F := F)).mayWaits_none (thr := V d (cV L) (jV L)) hO) $$ Hlv
  ihave Ha1' := (Entails.of_eq (pts_a1 (F := F) d L _).symm) $$ Ha1
  ihave Ha2' := (Entails.of_eq (pts_a2 (F := F) d L _).symm) $$ Ha2
  ihave Hv0' := (Entails.of_eq (pts_v0 (F := F) d L _).symm) $$ Hv0
  ihave Hs' := (Entails.of_eq (pts_sI (F := F) d L _).symm) $$ Hs
  ihave Hsx' := (Entails.of_eq (pts_sB (F := F) d L _).symm) $$ Hsx
  ihave Hc' := (Entails.of_eq (pts_sO (F := F) d L _).symm) $$ Hc
  sl_exec
  have hs0 : View.write (Elt F) (sI).view fs (tile_gather.sl.dma0 m d) Finset.univ = idxCopy m d L := by
    unfold tile_gather.sl.dma0
    rw [ReadAs.apply_same]
    exact View.write_whole_univ _ _ _
  have hs1 : View.write (Elt F) (sB).view fx (tile_gather.sl.dma0_1 m d) Finset.univ = tabCopy m d L := by
    unfold tile_gather.sl.dma0_1
    rw [ReadAs.apply_same]
    exact View.write_whole_univ _ _ _
  rw [hs0, hs1]
  sl_for (inv d L (idxCopy m d L) (tabCopy m d L) O W) $$ [Hmw Hs' Hsx' Hc' HO]
  case region =>
    intro k hk
    unfold inv
    iintro ⟨Hmw, Hs, Hsx, ⟨%f, %hf, Hc⟩, %W', %hW', HO⟩
    sl_exec
    rw [wp_assume_of _ _ _ _ (chk_of m d L k k0_h1 hpre)]
    ihave Hsx' := (Entails.of_eq (pts_sB_access (F := F) d L _).symm) $$ Hsx
    iapply (SparseCore.wp_vectorLoadIdx 𝒱₀ (V d (cV L) (jV L)) none Set.univ (base := (sB)) (S := Finset.univ) (q := fullShare) (Finset.subset_univ _)) $$ Hsx'; iintro Hsx'
    ihave Hsx := (Entails.of_eq (pts_sB_access (F := F) d L _)) $$ Hsx'
    sl_exec
    sl_step
    isplitl [Hmw]; · iexact Hmw
    isplitl [Hs]; · iexact Hs
    isplitl [Hsx]; · iexact Hsx
    isplitl [Hc]
    · iexists _; isplitr
      swap; · iexact Hc
      ipureintro
      exact step_val m d L k k0_h1 hpre f hf _
    iexists W'; isplitr
    · ipureintro; exact hW'
    · iexact HO
  · unfold inv
    isplitl [Hmw]; · iexact Hmw
    isplitl [Hs']; · iexact Hs'
    isplitl [Hsx']; · iexact Hsx'
    isplitl [Hc']
    · iexists fc; isplitr
      · ipureintro; intro j hj; omega
      · iexact Hc'
    iexists _; isplitr
    swap; · iexact HO
    ipureintro; intro p hp
    rcases Finset.mem_insert.mp hp with rfl | hp
    · exact .inr rfl
    rcases Finset.mem_insert.mp hp with rfl | hp
    · exact .inr rfl
    · exact .inl hp
  iintro %_ HI
  unfold inv
  icases HI with ⟨-, Hs, Hsx, ⟨%f, %hf, Hc⟩, %W', %hW', HO⟩
  sl_exec
  have hv0 : View.write (Elt F) (v0V).view (m (v0Loc d)) (tile_gather.sl.dma0_2 d L f) Finset.univ = rowOf m d := by
    refine out_val m d L f hf _ _ ?_
    unfold tile_gather.sl.dma0_2
    rw [ReadAs.apply_same]
    funext j
    simp only [Memref.view_whole, View.read_whole]
  rw [hv0]
  sl_step
  isplitl [Ha1' Ha2' Hv0']
  · isplitl [Ha1']; · iapply (Entails.of_eq (pts_a1 (F := F) d L _)); iexact Ha1'
    isplitl [Ha2']; · iapply (Entails.of_eq (pts_a2 (F := F) d L _)); iexact Ha2'
    iapply (Entails.of_eq (pts_v0 (F := F) d L _)); iexact Hv0'
  isplitl [Hs Hsx Hc Hbufs]
  · isplitl [Hs]; · iexists _; iexact Hs
    isplitl [Hsx]; · iexists _; iexact Hsx
    isplitl [Hc]; · iexists _; iexact Hc
    iexact Hbufs
  isplitl [HsemA HsemX HsemB Hsems]
  · isplitl [HsemA]; · iexact HsemA
    isplitl [HsemX]; · iexact HsemX
    isplitl [HsemB]; · iexact HsemB
    iexact Hsems
  iexists _; isplitr
  swap; · iexact HO
  ipureintro; intro p hp
  rcases Finset.mem_insert.mp hp with rfl | hp
  · exact .inr rfl
  · exact hW' p hp

end Tile

end Cert.Proof.KI

end
-- ==== Proof.KI.Region.lean ====
/-
  The pipelined mean: what one grid point does, and the data the pipeline's proof is carried over.

  The region walks 32 points. At point `t` the pipeline stages cells `8t … 8t+7` of the transposed embeddings
  (`[8, 100, 2000]`: cell, component, gene) and — once, at the first point — the bias row `[1, 2000]`; the body sums the
  100 components of each (cell, gene), scales the sum by the named 1/100, adds the gene's bias and stores the `[8, 2000]`
  block, which the pipeline writes back as rows `8t … 8t+7` of the result. The body reads its two inputs whole and
  overwrites its output whole: what the output block holds afterwards is one pure function of the two input blocks.
-/
import proofs.«206730_g8289286881952_cont_9to1_m_1135_20_alg».proof.Proof.KI.Common

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Pipeline (Dat Cfg Window BodyObligation cellOf)
open Idealize.ShloMosaic.TcCoe

variable {F : FTy → Type} [FloatOps F] [Named F]

local notation "𝕄" => MM F

-- The TensorCore's arrays as the region finds them, per device: a parameter here; the launch states which.
variable (Vr : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's one store -/

abbrev rOut : Rect S8x2000 := Rect.unit (s := S8x2000) ![0, 0] S8x2000.size inb_S8x2000_S8x2000_0_0
abbrev rIn0 : Rect S8x100x2000 := Rect.unit (s := S8x100x2000) ![0, 0, 0] S8x100x2000.size inb_S8x100x2000_S8x100x2000_0_0_0
abbrev rIn1 : Rect S1x2000 := Rect.unit (s := S1x2000) ![0, 0] S1x2000.size inb_S1x2000_S1x2000_0_0

/-- The output block after the body, from the two input blocks: its one store over the whole block. -/
def outBlk (x0 : Vec F S8x100x2000 .f32) (x1 : Vec F S1x2000 .f32) : Vec F S8x2000 .f32 :=
  View.canon [⟨rOut, k1_pay1 (View.ld x0 rIn0) (View.ld x1 rIn1)⟩]

/-- The store covers the block. -/
theorem cover_out (p0 : Vec F S8x2000 .f32) (y : S8x2000.Idx) :
    ∃ pc ∈ ([⟨rOut, p0⟩] : List (View.Piece (Elt F) S8x2000 .f32)), y ∈ pc.1.set :=
  View.cover_of_tiled [⟨rOut, p0⟩] S8x2000.size (by rfl) y

/-! ## The body's triple -/

set_option maxHeartbeats 1000000 in
/-- The body on whole staging memrefs — the inputs' at contents `x0`, `x1`, the output's at anything — runs to the
    continuation holding the inputs' as they were and the output's at `outBlk x0 x1`. -/
theorem sound_kernel (c : Dev nD) (E : Set ℕ) (i : grid1.Coords) (arg1 : Memref sig .tc .vmem S8x100x2000 .f32) (harg1 : arg1.IsWhole) (arg2 : Memref sig .tc .vmem S1x2000 .f32) (harg2 : arg2.IsWhole) (arg3 : Memref sig .tc .vmem S8x2000 .f32) (harg3 : arg3.IsWhole)
    (x0 : Vec F S8x100x2000 .f32) (x1 : Vec F S1x2000 .f32) (Kq : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kq ⟨⟩))
      ⊢ wp frame (wpE (defs₀ (F := F)) Variants.none c none) E (cc1__mean_kernel i arg1 harg1 arg2 harg2 arg3 harg3) Kq := by
  simp only [cc1__mean_kernel_eq_skeleton]; unfold cc1__mean_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer at its block and the output's at `outBlk` of the input blocks; nothing carried from point to point;
    nothing owed; full shares; the waits the core has recorded by then all at a level of at most 8 (the handshakes of the
    one call before the region sit there; the pipeline's own waits sit at level 0). -/
def dats (_ : Fin 1) (c : Dev nD) : Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => outBlk (iblk Vr c 0 t) (iblk Vr c 1 t)
  Φ _ := iprop(emp)
  q _ := fullShare
  owed _ := 0
  recorded _ := {p | (K (F := F)).lev ((c.tc : Thread nD τ), p.1) p.2 ≤ 8}

theorem A_eq (c : Dev nD) (w : Fin cfg1.W) : (dats Vr 0 c).A w = Vr c (Pipeline.arrRef spec1 w) := by
  dsimp only [dats]

theorem after1_0 (c : Dev nD) (t : Fin cfg1.N) : (dats Vr 0 c).after 0 t = iblk Vr c 0 t := by dsimp only [dats]
theorem after1_1 (c : Dev nD) (t : Fin cfg1.N) : (dats Vr 0 c).after 1 t = iblk Vr c 1 t := by dsimp only [dats]
theorem after1_2 (c : Dev nD) (t : Fin cfg1.N) : (dats Vr 0 c).after 2 t = outBlk (iblk Vr c 0 t) (iblk Vr c 1 t) := by dsimp only [dats]

/-- Each input's current staging buffer holds its block at every point, fetched there or not. -/
theorem before1_0 (c : Dev nD) (t : Fin cfg1.N) (d) : (dats Vr 0 c).before 0 t d = iblk Vr c 0 t :=
  ((dats Vr 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vr 0 c).before 1 t d = iblk Vr c 1 t :=
  ((dats Vr 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-! ## The body obligation, at a generic point -/

def bodyPre (c : Dev nD) (t : Fin cfg1.N) : sProp 𝕄 :=
  iprop((dats Vr 0 c).Φ t.castSucc ∗ (dats Vr 0 c).owesAt none t.castSucc
    ∗ (∃ d, owns (c : Thread nD τ) (st1_0 t) fullShare ((dats Vr 0 c).before 0 t d))
    ∗ (∃ d, owns (c : Thread nD τ) (st1_1 t) fullShare ((dats Vr 0 c).before 1 t d))
    ∗ (∃ d, owns (c : Thread nD τ) (st1_2 t) fullShare ((dats Vr 0 c).before 2 t d)))

def bodyPost (c : Dev nD) (t : Fin cfg1.N) : sProp 𝕄 :=
  iprop((dats Vr 0 c).Φ t.succ ∗ (dats Vr 0 c).owesAt none t.succ
    ∗ owns (c : Thread nD τ) (st1_0 t) fullShare ((dats Vr 0 c).after 0 t)
    ∗ owns (c : Thread nD τ) (st1_1 t) fullShare ((dats Vr 0 c).after 1 t)
    ∗ owns (c : Thread nD τ) (st1_2 t) fullShare ((dats Vr 0 c).after 2 t))

/-- The body at any point: the inputs' memrefs hold their blocks, so `sound_kernel` applies; what the core owes passes
    through unread. -/
theorem sound_body (c : Dev nD) (t : Fin cfg1.N) :
    bodyPre Vr c t ⊢ wp frame (wpE (defs₀ (F := F)) Variants.none c none) Set.univ (bodyAt1 t) (fun _ => bodyPost Vr c t) := by
  unfold bodyPre bodyPost bodyAt1
  simp only [before1_0, before1_1]
  rw [show (dats Vr 0 c).Φ t.succ = (dats Vr 0 c).Φ t.castSucc from rfl,
    show (dats Vr 0 c).owesAt none t.succ = (dats Vr 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk Vr c 0 t) (iblk Vr c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) Vr 0 c) (defs₀ (F := F)) Variants.none none Set.univ := fun t => by
  rw [bigSep_W1, bigSep_W1]
  exact sound_body Vr c t

end Cert.Proof.KI

end
-- ==== Proof.KI.Launch.lean ====
/-
  The launch: the handshakes' payloads, each subcore's obligation, the TensorCore's thread, and the run.

  The TensorCore hands SparseCore 0 the index words, the bias table and the row to fill; its sequencer passes all three
  to subcore 0 and nothing to the others; subcore 0 brings the row back filled (the bias row of the launch memory), and
  the TensorCore goes on: it transposes the embeddings, reshapes the row to `[1, 2000]` and runs the pipelined mean.
-/
import proofs.«206730_g8289286881952_cont_9to1_m_1135_20_alg».proof.Proof.KI.Tile
import proofs.«206730_g8289286881952_cont_9to1_m_1135_20_alg».proof.Proof.KI.Region

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Pipeline (Dat Cfg Window BodyObligation cellOf)
open Cert.Spec (biasRow)

variable {F : FTy → Type}

local notation "𝕄" => MM F

variable (m : (ℓ : Loc nD τ sig) → Buf (Elt F) ℓ) (ρ : Dev nD → PrngReg)

/-! ## What the handshakes carry -/

/-- The three arrays of the gather, the row as launched; and the row filled. -/
abbrev gatherIn (d : Dev nD) : sProp 𝕄 := iprop(a1Pts m d ∗ a2Pts m d ∗ v0Pts d (m (v0Loc d)))
abbrev gatherOut (d : Dev nD) : sProp 𝕄 := iprop(a1Pts m d ∗ a2Pts m d ∗ v0Pts d (rowOf m d))

/-- SparseCore number `c` takes the arrays if it is SparseCore 0, and its subcore `i` if it is subcore 0 of that. -/
def stCore (d : Dev nD) (c : ℕ) : sProp 𝕄 := if c = 0 then gatherIn m d else iprop(emp)
def dnCore (d : Dev nD) (c : ℕ) : sProp 𝕄 := if c = 0 then gatherOut m d else iprop(emp)
def goTile (d : Dev nD) (c i : ℕ) : sProp 𝕄 := if c = 0 ∧ i = 0 then gatherIn m d else iprop(emp)
def tdTile (d : Dev nD) (c i : ℕ) : sProp 𝕄 := if c = 0 ∧ i = 0 then gatherOut m d else iprop(emp)

instance stCore_storable (d : Dev nD) (c : ℕ) : BI.Storable (upEmb : UEmb _ 𝕄) (stCore m d c) := by unfold stCore; split <;> infer_instance
instance dnCore_storable (d : Dev nD) (c : ℕ) : BI.Storable (upEmb : UEmb _ 𝕄) (dnCore m d c) := by unfold dnCore; split <;> infer_instance
instance goTile_storable (d : Dev nD) (c i : ℕ) : BI.Storable (upEmb : UEmb _ 𝕄) (goTile m d c i) := by unfold goTile; split <;> infer_instance
instance tdTile_storable (d : Dev nD) (c i : ℕ) : BI.Storable (upEmb : UEmb _ 𝕄) (tdTile m d c i) := by unfold tdTile; split <;> infer_instance

def P : (K (F := F)).Pay (nD := nD) (Val := Elt F) (Name := ℕ) (U := UU) where
  st := fun _ d c => stCore m d c.val
  dn := fun _ d c => dnCore m d c.val
  go := fun _ d c i => goTile m d c.val i.val
  td := fun _ d c i => tdTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

variable [FloatOps F] [Named F]

/-! ## The idle subcores -/

/-- A subcore that is not subcore 0 of SparseCore 0 takes the other branch and returns. -/
theorem tile_idle (d : Dev nD) (L : grid0.Coords) (k0_h1 : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__bias_gather_sc L a1V (Memref.isWhole_whole _) a2V (Memref.isWhole_whole _) v0V (Memref.isWhole_whole _)
            sI (Memref.isWhole_whole _) sB (Memref.isWhole_whole _) sO (Memref.isWhole_whole _) cc0_scoped0 cc0_scoped1 cc0_scoped2)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__bias_gather_sc_eq_skeleton]; unfold cc0__bias_gather_sc_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__bias_gather_sc (coordsV c s)
          a1V (Memref.isWhole_whole _) a2V (Memref.isWhole_whole _) v0V (Memref.isWhole_whole _)
          sI (Memref.isWhole_whole _) sB (Memref.isWhole_whole _) sO (Memref.isWhole_whole _) cc0_scoped0 cc0_scoped1 cc0_scoped2) ⟨⟩ c s := rfl

/-- The body's branch is taken exactly on subcore 0 of SparseCore 0. -/
theorem cond_iff : ∀ (c : Fin (grid0.bound 0)) (s : Fin (grid0.bound 1)), k0_cond1 (coordsV c s) = 1#1 ↔ c.val = 0 ∧ s.val = 0 := by
  decide

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goTile m d c.val i.val ∗ _) ⊢ wp _ _ _ _ (fun _ => iprop(tdTile m d c.val i.val ∗ _))
  by_cases h0 : c.val = 0 ∧ i.val = 0
  · rw [show goTile m d c.val i.val = gatherIn m d from if_pos h0, show tdTile m d c.val i.val = gatherOut m d from if_pos h0]
    exact (tile_gather m d (coordsV ⟨_, hc.1⟩ ⟨_, hc.2⟩) hF ((cond_iff ⟨_, hc.1⟩ ⟨_, hc.2⟩).mpr h0) hpre O W hO).trans (wp_mono frame _ _ fun _ => obl_post)
  · rw [show goTile m d c.val i.val = iprop(emp) from if_neg h0, show tdTile m d c.val i.val = iprop(emp) from if_neg h0]
    exact (tile_idle d (coordsV ⟨_, hc.1⟩ ⟨_, hc.2⟩) (fun h => h0 ((cond_iff ⟨_, hc.1⟩ ⟨_, hc.2⟩).mp h)) O W).trans (wp_mono frame _ _ fun _ => obl_post)

omit [FloatOps F] [Named F] in
theorem bigSep_emp' {I : Type} (s : Finset I) : (bigSep s fun _ => iprop(emp)) = (iprop(emp) : sProp 𝕄) := bigSep_emp_const s

omit [FloatOps F] [Named F] in
/-- Of a SparseCore's sixteen subcores only subcore 0 is handed anything: the sixteen shares are subcore 0's. -/
theorem tiles_eq (Φ : Fin 16 → sProp 𝕄) (h : ∀ i : Fin 16, i ≠ 0 → Φ i = iprop(emp)) :
    (bigSep Finset.univ fun i : Fin ((K (F := F)).nSub 0) => Φ i) = iprop(Φ 0 ∗ emp) := by
  show (bigSep (Finset.univ : Finset (Fin 16)) fun i => Φ i) = _
  rw [SparseCore.bigSep_erase' (Finset.mem_univ (0 : Fin 16)),
    bigSep_congr (s := (Finset.univ : Finset (Fin 16)).erase 0) (fun i hi => h i (Finset.mem_erase.mp hi).1), bigSep_emp']

theorem vecSplit : (K (F := F)).VecSplit' (P m) 0 := by
  intro d c
  show stCore m d c.val ⊢ |={Set.univ}=> iprop(
      (bigSep Finset.univ fun i : Fin ((K (F := F)).nSub 0) => goTile m d c.val i.val)
      ∗ ((bigSep Finset.univ fun i : Fin ((K (F := F)).nSub 0) => tdTile m d c.val i.val) -∗ dnCore m d c.val))
  have e1 : goTile m d c.val (0 : Fin 16).val = stCore m d c.val := by unfold goTile stCore; simp
  have e2 : tdTile m d c.val (0 : Fin 16).val = dnCore m d c.val := by unfold tdTile dnCore; simp
  rw [tiles_eq (F := F) (fun i => goTile m d c.val i.val) (fun i hi => if_neg fun h => hi (Fin.ext h.2)),
    tiles_eq (F := F) (fun i => tdTile m d c.val i.val) (fun i hi => if_neg fun h => hi (Fin.ext h.2))]
  dsimp only
  rw [e1, e2]
  iintro H; imodintro
  isplitl [H]
  · isplitl [H]; · iexact H
    iempintro
  · iintro ⟨H, -⟩; iexact H

/-! ## The launch element: the handshakes' rounds, the pipeline's cells, nothing of the gather's own -/

theorem cellOf_inj' : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What @main's proof starts from besides the launch's deal: the pipeline's staging cells and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ghost_regroup :
    iprop((bigSep Finset.univ fun c : Dev nD => bigSep Finset.univ fun p : Fin 1 => (Pipeline.cellsGhost (Pipeline.pin (pcfgs (F := F)) adm) EP p c : sProp 𝕄))
        ∗ (bigSep Finset.univ fun c : Dev nD => bigSep Finset.univ fun p : Fin 1 => (Pipeline.toksInit (Pipeline.pin (pcfgs (F := F)) adm) EP p c : sProp 𝕄)))
      ⊢ bigSep Finset.univ fun d : Dev nD => G (F := F) d := by
  rw [bigSep_congr (fun c _ => bigSep_univ_of_subsingleton (0 : Fin 1)), bigSep_congr (fun c _ => bigSep_univ_of_subsingleton (0 : Fin 1)), bigSep_sep']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP0, -⟩
  ihave HP := (Entails.of_eq (show (BI.own (((Emb.inl : Emb UP (UP × Counters)).trans embR)
      (initOf (Pipeline.cells (Pipeline.pin (pcfgs (F := F)) adm) cellOf_inj') (Pipeline.launchToks (Pipeline.pin (pcfgs (F := F)) adm) cellOf_inj'))) : sProp 𝕄)
      = BI.own ((EP : Emb UP (MM F)) (initOf (Pipeline.cells (Pipeline.pin (pcfgs (F := F)) adm) cellOf_inj') (Pipeline.launchToks (Pipeline.pin (pcfgs (F := F)) adm) cellOf_inj'))) from by unfold EP; rfl)) $$ HP0
  imod (Pipeline.fund_ghost (Pipeline.pin (pcfgs (F := F)) adm) EP cellOf_inj') $$ HP with HG
  imodintro
  isplitl [HH]; · iexact HH
  isplitl [HG]; · iapply ghost_regroup; iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's seven arrays. -/
abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev w0 : DevRef τ sig := Proc.devRef .tc (main_v0 : Ref sig .tc)
abbrev w1 : DevRef τ sig := Proc.devRef .tc (main_v1 : Ref sig .tc)
abbrev w2 : DevRef τ sig := Proc.devRef .tc (main_v2 : Ref sig .tc)
abbrev w3 : DevRef τ sig := Proc.devRef .tc (main_v3 : Ref sig .tc)

def bufs : Finset (DevRef τ sig) := (StableHlo.tcRefs τ sig).filter fun b => ¬ b.isScoped

omit [FloatOps F] [Named F] in
theorem unscopedBufs_held (c : Dev nD) (Wv : Valuation τ sig (Elt F)) :
    (unscopedBufs c (fun b => Wv (Proc.devRef .tc b)) : sProp 𝕄) = held (T c) bufs Wv := by
  unfold unscopedBufs StableHlo.held bufs StableHlo.tcRefs
  rw [Finset.filter_map, BI.bigSep_map]
  rfl

abbrev pt (c : Dev nD) (b : DevRef τ sig) (f : Buf (Elt F) ((c, b) : Loc nD τ sig)) : sProp 𝕄 := ((c, b) : Loc nD τ sig) ↦{fullShare} f

omit [FloatOps F] [Named F] in
theorem bufs_eq (c : Dev nD) (Wv : Valuation τ sig (Elt F)) : (held (T c) bufs Wv : sProp 𝕄)
    = iprop(pt c r0 (Wv r0) ∗ pt c r1 (Wv r1) ∗ pt c r2 (Wv r2) ∗ pt c w0 (Wv w0) ∗ pt c w1 (Wv w1) ∗ pt c w2 (Wv w2) ∗ pt c w3 (Wv w3)) := by
  unfold StableHlo.held
  rw [bigSep_eq_bigSepL_of_eq [r0, r1, r2, w0, w1, w2, w3] (by decide) (by decide)]
  rfl

/-- The two host operations between the gather and the region. -/
abbrev opT : HloOp τ sig (Elt F) :=
  StableHlo.unary main_arg0 main_v1 ((transpose S256x100x2000 [0, 2, 1] · transposes_S256x2000x100_S256x100x2000_0_2_1) : (⟨S256x2000x100, .f32⟩ : BufTy).Contents (Elt F) → (⟨S256x100x2000, .f32⟩ : BufTy).Contents (Elt F))
abbrev opR : HloOp τ sig (Elt F) := StableHlo.reshape main_v0 main_v2 rfl shapeCasts_S2000_S1x2000

/-- The launch valuation; after the gather, the row filled; after the transpose; after the reshape. -/
def V0 (d : Dev nD) : Valuation τ sig (Elt F) := fun b => m (d, b)
def V1 (d : Dev nD) : Valuation τ sig (Elt F) := Function.update (V0 m d) w0 (rowOf m d)
def V2 (d : Dev nD) : Valuation τ sig (Elt F) := (opT (F := F)).result (V1 m d)
def V3 (d : Dev nD) : Valuation τ sig (Elt F) := (opR (F := F)).result (V2 m d)

/-- The arrays as the region finds them. -/
def Vr (c : Dev nD) (b : Ref sig .tc) : Buf (Elt F) ((c.tc : Thread nD τ).loc b) := V3 m c (Proc.devRef .tc b)

/-! ### The region -/

theorem bigSep_none {M : Type} [URA M] (Φ : Fin 0 → sProp M) : bigSep Finset.univ Φ = (BI.emp : sProp M) :=
  bigSep_univ_eq_bigSepL [] (by decide) (by decide) Φ

omit [FloatOps F] [Named F] in
/-- The pipeline has no prefetched table. -/
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The pairs the TensorCore may have recorded a wait at by the time it reaches the region: those at level 8 or below. -/
def lowPairs (c : Dev nD) : Set (SemLoc sig × HIx 1) := {p | (K (F := F)).lev ((c.tc : Thread nD τ), p.1) p.2 ≤ 8}

theorem bound_low (c : Dev nD) (t) : (dats (Vr m) 0 c).bound none t ⊆ lowPairs (F := F) c := by
  intro p hp
  rcases hp with hp | ⟨w, s, rfl⟩
  · exact hp
  · show (K (F := F)).lev _ none ≤ 8
    rw [SparseCore.Cfg.lev_none]; omega

/-- The pipelined mean as a region of @main: entered from the seven arrays as the host operations left them and the
    core owing nothing; it leaves the three windows' arrays at what the pipeline computes and the other four untouched. -/
def region : Pipeline.RegionSeg (pcfgs (F := F)) adm (dats (Vr m)) none defs₀ 𝒱₀ (K (F := F)).L (K (F := F)).lev 0 where
  win := Pipeline.WinFacts.to₀ _ launch1.win
  block_pos := launch1.block_pos
  stage_whole := launch1.stage_whole
  K := PEmpty
  osem k := k.elim
  ho := Pipeline.OwnSemFacts.none _
  hbody c := (body_obligation (Vr m) c).loose
  hwaits := Pipeline.hwaits_of_owed_zero _ _ _ _ _ _ 0 fun _ _ => rfl
  pre c := iprop(unscopedBufs c (Vr m c) ∗ Pipeline.owesWithin c 0 (lowPairs (F := F) c))
  post c := iprop((dats (Vr m) 0 c).arrays (fun w => (dats (Vr m) 0 c).arrAt w cfg1.N) ∗ Pipeline.unscopedRest spec1 c (Vr m c)
    ∗ Pipeline.owesWithin c 0 (lowPairs (F := F) c))
  X _ := iprop(emp)
  Y _ := iprop(emp)
  Z c := Pipeline.unscopedRest spec1 c (Vr m c)
  hentry c := by
    rw [prefHeld_emp]
    iintro ⟨⟨Hb, HO⟩, -, -⟩
    ihave H := (Pipeline.arrays_of_unscopedBufs (pcfgs (F := F)) adm (dats (Vr m)) launch1.win launch1.arr_whole c ((dats (Vr m) 0 c).share_full fun _ => rfl) (Vr m c) (fun w => A_eq (Vr m) c w)) $$ Hb
    icases H with ⟨Ha, Hr⟩
    imodintro
    isplitl [Ha]; · iexact Ha
    isplitr; · iempintro
    isplitl [HO]
    · iapply (Pipeline.owesWithin_mono c 0 (B := lowPairs (F := F) c) (B' := (dats (Vr m) 0 c).bound none 0) (fun p hp => Or.inl hp)); iexact HO
    isplitr; · iempintro
    iexact Hr
  hin c := by iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    iapply (Pipeline.owesWithin_mono c 0 (bound_low m c _)); iexact HO

/-! ### The call's payloads, summed over the two SparseCores -/

theorem st0_eq (d : Dev nD) : (bigSep Finset.univ fun c : Fin ((K (F := F)).nCore 0) => (P m).st 0 d c) = iprop(gatherIn m d ∗ emp) := by
  show (bigSep (Finset.univ : Finset (Fin 2)) fun c => stCore m d c.val) = _
  rw [show (Finset.univ : Finset (Fin 2)) = {0, 1} by decide, SparseCore.bigSep_insert' (by decide), bigSep_singleton]
  show iprop(stCore m d 0 ∗ stCore m d 1) = _
  rw [show stCore m d 0 = gatherIn m d from if_pos rfl, show stCore m d 1 = iprop(emp) from if_neg Nat.one_ne_zero]
theorem dn0_eq (d : Dev nD) : (bigSep Finset.univ fun c : Fin ((K (F := F)).nCore 0) => (P m).dn 0 d c) = iprop(gatherOut m d ∗ emp) := by
  show (bigSep (Finset.univ : Finset (Fin 2)) fun c => dnCore m d c.val) = _
  rw [show (Finset.univ : Finset (Fin 2)) = {0, 1} by decide, SparseCore.bigSep_insert' (by decide), bigSep_singleton]
  show iprop(dnCore m d 0 ∗ dnCore m d 1) = _
  rw [show dnCore m d 0 = gatherOut m d from if_pos rfl, show dnCore m d 1 = iprop(emp) from if_neg Nat.one_ne_zero]

/-! ### The valuations, read at the arrays -/

omit [FloatOps F] [Named F] in
theorem V1_w0 (d : Dev nD) : V1 m d w0 = rowOf m d := Function.update_self _ _ _
omit [FloatOps F] [Named F] in
theorem V1_ne (d : Dev nD) {b : DevRef τ sig} (h : b ≠ w0) : V1 m d b = V0 m d b := Function.update_of_ne h _ _

theorem hT : (opT (F := F)).bufs ⊆ bufs := show ({r0, w1} : Finset (DevRef τ sig)) ⊆ bufs by decide
theorem hR : (opR (F := F)).bufs ⊆ bufs := show ({w0, w2} : Finset (DevRef τ sig)) ⊆ bufs by decide

/-- After the two host operations: the transposed embeddings, the row as `[1, 2000]`, the three arguments as launched. -/
theorem V3_w1 (d : Dev nD) : V3 m d w1 = transpose S256x100x2000 [0, 2, 1] (m (d, r0)) transposes_S256x2000x100_S256x100x2000_0_2_1 := by
  unfold V3 V2
  rw [(opR (F := F)).result_of_not_mem _ (b := w1) (show w1 ∉ ({w2} : Finset (DevRef τ sig)) by decide), StableHlo.unary_result',
    V1_ne m d (show r0 ≠ w0 by decide)]
  rfl
theorem V3_w2 (d : Dev nD) : V3 m d w2 = shapeCast S1x2000 (rowOf m d) shapeCasts_S2000_S1x2000 := by
  unfold V3 V2
  rw [StableHlo.reshape_result', (opT (F := F)).result_of_not_mem _ (b := w0) (show w0 ∉ ({w1} : Finset (DevRef τ sig)) by decide), V1_w0]
  rfl
theorem V3_r0 (d : Dev nD) : V3 m d r0 = m (d, r0) := by
  unfold V3 V2
  rw [(opR (F := F)).result_of_not_mem _ (b := r0) (show r0 ∉ ({w2} : Finset (DevRef τ sig)) by decide),
    (opT (F := F)).result_of_not_mem _ (b := r0) (show r0 ∉ ({w1} : Finset (DevRef τ sig)) by decide), V1_ne m d (show r0 ≠ w0 by decide)]
  rfl
theorem V3_r1 (d : Dev nD) : V3 m d r1 = m (d, r1) := by
  unfold V3 V2
  rw [(opR (F := F)).result_of_not_mem _ (b := r1) (show r1 ∉ ({w2} : Finset (DevRef τ sig)) by decide),
    (opT (F := F)).result_of_not_mem _ (b := r1) (show r1 ∉ ({w1} : Finset (DevRef τ sig)) by decide), V1_ne m d (show r1 ≠ w0 by decide)]
  rfl
theorem V3_r2 (d : Dev nD) : V3 m d r2 = m (d, r2) := by
  unfold V3 V2
  rw [(opR (F := F)).result_of_not_mem _ (b := r2) (show r2 ∉ ({w2} : Finset (DevRef τ sig)) by decide),
    (opT (F := F)).result_of_not_mem _ (b := r2) (show r2 ∉ ({w1} : Finset (DevRef τ sig)) by decide), V1_ne m d (show r2 ≠ w0 by decide)]
  rfl

theorem region_pre (d : Dev nD) : (region m).pre d = iprop(unscopedBufs d (Vr m d) ∗ Pipeline.owesWithin d 0 (lowPairs (F := F) d)) := rfl
theorem region_post (d : Dev nD) : (region m).post d = iprop((dats (Vr m) 0 d).arrays (fun w => (dats (Vr m) 0 d).arrAt w cfg1.N) ∗ Pipeline.unscopedRest spec1 d (Vr m d)
    ∗ Pipeline.owesWithin d 0 (lowPairs (F := F) d)) := rfl

omit [FloatOps F] [Named F] in
/-- The TensorCore's state between calls gives up what it owes and takes it back. -/
theorem tcSt_open (d : Dev nD) (n : ℕ) :
    ((K (F := F)).tcSt EH d n : sProp 𝕄) ⊢ iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) := by
  unfold SparseCore.Cfg.tcSt
  iintro ⟨H, Hrest⟩
  isplitl [H]; · iexact H
  iintro H
  isplitl [H]; · iexact H
  iexact Hrest

omit [FloatOps F] [Named F] in
theorem ctx_lev (κ : GSem nD τ sig → ℕ) : ((K (F := F)).ctx EH (P m) κ : sProp 𝕄) ⊢ levAts (K (F := F)).L (K (F := F)).lev := by
  unfold SparseCore.Cfg.ctx
  iintro ⟨H, -⟩; iexact H

/-- What @main leaves the claim: the three arguments as launched, and the result as the pipeline's data names it. -/
abbrev FIN (d : Dev nD) : sProp 𝕄 :=
  iprop((dats (Vr m) 0 d).arrays (fun w => (dats (Vr m) 0 d).arrAt w cfg1.N) ∗ Pipeline.unscopedRest spec1 d (Vr m d))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) bufs (V0 m d) from unscopedBufs_held d (V0 m d)]
  simp only [main, wp_bind, wp_pure]
  iintro ⟨#Hctx, Hst, ⟨Hb, Hheld, -, -⟩, ⟨Hcg, Htk⟩⟩
  ihave Hh := (Entails.of_eq (bufs_eq (F := F) d _)) $$ Hheld
  icases Hh with ⟨H0, H1, H2, Hw0, Hw1, Hw2, Hw3⟩
  iapply ((K (F := F)).wp_run (D (F := F)) 𝒱 (EH := EH) (P := P m) κ d 0) $$ [Hst H0 H1 H2 Hw0 Hw1 Hw2 Hw3 Hb Hcg Htk]
  isplitr; · iexact Hctx
  isplitl [Hst]; · iexact Hst
  isplitl [H1 H2 Hw0]
  · rw [st0_eq]
    isplitl [H1 H2 Hw0]
    · isplitl [H1]; · iexact H1
      isplitl [H2]; · iexact H2
      iexact Hw0
    · iempintro
  iintro ⟨Hst, Hdn⟩
  ihave Hdn' := (Entails.of_eq (dn0_eq m d)) $$ Hdn
  icases Hdn' with ⟨⟨H1, H2, Hw0⟩, -⟩
  -- the transpose, over the seven arrays with the row filled
  iapply (wp_hlo_within 𝒱 (SparseCore.T d) none Set.univ (op := opT) (S := bufs) hT (V := V1 m d)) $$ [Hb H0 H1 H2 Hw0 Hw1 Hw2 Hw3]
  · isplitl [Hb]; · iexact Hb
    rw [bufs_eq, V1_w0, V1_ne m d (show r0 ≠ w0 by decide), V1_ne m d (show r1 ≠ w0 by decide), V1_ne m d (show r2 ≠ w0 by decide),
      V1_ne m d (show w1 ≠ w0 by decide), V1_ne m d (show w2 ≠ w0 by decide), V1_ne m d (show w3 ≠ w0 by decide)]
    isplitl [H0]; · iexact H0
    isplitl [H1]; · iexact H1
    isplitl [H2]; · iexact H2
    isplitl [Hw0]; · iexact Hw0
    isplitl [Hw1]; · iexact Hw1
    isplitl [Hw2]; · iexact Hw2
    iexact Hw3
  iintro ⟨Hb, Hheld⟩
  rw [wp_ret]; imodintro
  -- the reshape
  iapply (wp_hlo_within 𝒱 (SparseCore.T d) none Set.univ (op := opR) (S := bufs) hR (V := V2 m d)) $$ [Hb Hheld]
  · isplitl [Hb]; · iexact Hb
    iexact Hheld
  iintro ⟨Hb, Hheld⟩
  rw [wp_ret]; imodintro
  -- the region: the core's debt (none, after the one call) goes in and comes back
  ihave Hlv := (ctx_lev m κ) $$ Hctx
  ihave Hst1 := (Entails.of_eq (show ((K (F := F)).tcSt EH d ((0 : Fin 1).val + 1) : sProp 𝕄) = (K (F := F)).tcSt EH d 1 from rfl)) $$ Hst
  ihave Hst' := (tcSt_open (F := F) d 1) $$ Hst1
  icases Hst' with ⟨⟨%W, %hW, HO⟩, Hback⟩
  rw [(K (F := F)).Otc_end d (le_refl 1)]
  have e : (Prog.lift (TpuEff.customCall (SparseCore.inner (Pipeline.entry 0)) ()) : Prog (TpuEff nD τ sig (Elt F) (SparseCore.Sig (ΛP (F := F)) 1) .tc) PUnit)
      = SparseCore.liftProg (Prog.op (TpuEff.customCall (Pipeline.entry 0) ()) Prog.ret) := rfl
  rw [e]
  iapply ((K (F := F)).wp_liftProg (D (F := F)) 𝒱 (SparseCore.T d) Set.univ none _ _)
  iapply (Pipeline.RegionSeg.wp (pcfgs (F := F)) adm (dats (Vr m)) none cellOf_inj' EP defs₀ 𝒱₀ (K (F := F)).L (K (F := F)).lev (region m) d none
    (fun u hu => nomatch hu) Prog.ret _) $$ [Hb Hheld HO Hback Hcg Htk]
  isplitl [Hback]
  · rw [region_post]
    iintro ⟨Hb, Ha, Hr, %W', %hW', HO⟩
    rw [wp_ret]; imodintro; imodintro
    isplitl [HO Hback]
    · iapply Hback
      iexists W'; isplitr
      · ipureintro; exact fun p hp => hW' hp
      · iexact HO
    isplitl [Ha]; · iexact Ha
    iexact Hr
  isplitl [Hb]; · iexact Hb
  isplitl [Hheld HO]
  · rw [region_pre]
    isplitl [Hheld]
    · iapply (Entails.of_eq (unscopedBufs_held (F := F) d (V3 m d)).symm); iexact Hheld
    · iexists W; isplitr
      · ipureintro; exact fun p hp => hW p hp
      · iexact HO
  isplitr; · iexact Hlv
  isplitl [Hcg]; · iexact Hcg
  iexact Htk

/-! ## Reading the claim off the final memory -/

def fq (d : Dev nD) (s' : Phys nD τ sig (Elt F)) : Prop :=
  s'.mem.mem ((d.tc : Thread nD τ).loc main_v3) = (dats (Vr m) 0 d).arrAt 2 cfg1.N
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)

theorem hfin (d : Dev nD) (s' : Phys nD τ sig (Elt F)) : iprop(FIN m d ∗ SI s') ⊢ (⌜fq m d s'⌝ : sProp 𝕄) := by
  iintro ⟨⟨Ha, Hr⟩, HSI⟩
  ihave H := (Pipeline.arrays_read (pcfgs (F := F)) adm (dats (Vr m)) launch1.arr_whole d ((dats (Vr m) 0 d).share_full fun _ => rfl) _ s') $$ [Ha HSI]
  · isplitl [Ha] <;> iassumption
  icases H with ⟨%ha, HSI⟩
  ihave Hr' := (Entails.of_eq (unscopedRest1_eq (Ix := HIx 1) (Val := Elt F) (Name := ℕ) (U := UU) (Lvl := ℕ) d (Vr m d))) $$ Hr
  icases Hr' with ⟨H0, H1, H2, -⟩
  ihave H := (persistent_entails_right (SI_pointsTo_agree (st := s') (ℓ := (d.tc : Thread nD τ).loc main_arg0) (I := Finset.univ) (q := fullShare))) $$ [HSI H0]
  · isplitl [HSI] <;> iassumption
  icases H with ⟨%h0, HSI, -⟩
  ihave H := (persistent_entails_right (SI_pointsTo_agree (st := s') (ℓ := (d.tc : Thread nD τ).loc main_arg1) (I := Finset.univ) (q := fullShare))) $$ [HSI H1]
  · isplitl [HSI] <;> iassumption
  icases H with ⟨%h1, HSI, -⟩
  ihave H := (SI_pointsTo_agree (st := s') (ℓ := (d.tc : Thread nD τ).loc main_arg2) (I := Finset.univ) (q := fullShare)) $$ [HSI H2]
  · isplitl [HSI] <;> iassumption
  icases H with %h2
  ipureintro
  refine ⟨ha 2, ?_, ?_, ?_⟩
  · exact (funext fun i => h0 i (Finset.mem_univ i)).trans (V3_r0 m d)
  · exact (funext fun i => h1 i (Finset.mem_univ i)).trans (V3_r1 m d)
  · exact (funext fun i => h2 i (Finset.mem_univ i)).trans (V3_r2 m d)

/-! ## The run -/

/-- The final memory: the result at what the pipeline's data computes, the three arguments as launched. -/
def QC : PUnit × MemSt nD τ sig (Elt F) → Prop := fun r => ∀ c : Dev nD,
  r.2.mem ((c.tc : Thread nD τ).loc main_v3) = (dats (Vr m) 0 c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main [∀ e, Nonempty (Elt F e)] (hpre : IdxOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.Proof.KI

end
-- ==== Proof.KI.Value.lean ====
/-
  The value of the pipelined mean at the extended reals.

  One grid point leaves, in its `[8, 2000]` output block, at cell `p` and gene `q`: the sum over the 100 components of
  the staged embeddings at `(p, ·, q)`, times the rational 1/100, plus the bias row at `q`. The 32 points' blocks are
  rows `8t … 8t+7` of the result and tile it, so the result array ends as one function `meanRows` of the two arrays the
  region reads. In front of the region the embeddings are transposed (component and gene swapped) and the gathered
  bias row is given a leading unit axis; with those two read at an index, `meanRows` is the specification's `G`.
-/
import proofs.«206730_g8289286881952_cont_9to1_m_1135_20_alg».proof.Proof.KI.Region
import proofs.«206730_g8289286881952_cont_9to1_m_1135_20_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Pipeline (Dat Cfg Window BodyObligation cellOf)
open Idealize.ShloMosaic.TcCoe
open Idealize.ShloMosaic.ValueIdx
open scoped BigOperators

/-! ## One block: the body's arithmetic at a cell and a gene -/

/-- The whole-block rectangles sit at zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The named reciprocal denotes the rational 1/100 at the extended reals, by the program's table of named constants. -/
theorem inv_100 : Named.named (F := Ideal) Cert.KernelIdeal.κ "inv_100" (φ := .f32) 0x3C23D70A#32 = ((1 / 100 : ℝ) : EReal) :=
  IdealRules.named_const.ideal_named_scalar _ _ _ _ rfl

/-- The sum over the component axis of an `[8, 100, 2000]` block, at cell `p` and gene `q`: the 100 components added. -/
theorem laneSum_apply (v : FVec Ideal S8x100x2000 .f32) (hφ : FKind.Formats .f32)
    (hacc : (0x00000000#32 : BitVec 32) = FKind.add.neutral .f32 hφ) (p : Fin 8) (q : Fin 2000) :
    multiReduction .add [1] S8x2000 v 0x00000000#32 reduces_S8x100x2000_S8x2000 hφ hacc (ix2 p q)
      = ∑ e : Fin 100, v (ix3 p e q) := by
  refine (Ideal.multiReduction_add_single v 0x00000000#32 reduces_S8x100x2000_S8x2000 hφ hacc (ix2 p q)).trans ?_
  refine Finset.sum_congr rfl fun e _ => congrArg v (funext fun a => Fin.ext ?_)
  match a with
  | ⟨0, _⟩ => rfl
  | ⟨1, _⟩ => rfl
  | ⟨2, _⟩ => rfl

/-- The body's arithmetic on its two loaded blocks, at cell `p` and gene `q`. -/
theorem pay_apply (v0 : Vec Ideal S8x100x2000 .f32) (v5 : Vec Ideal S1x2000 .f32) (p : Fin 8) (q : Fin 2000) :
    k1_pay1 (F := Ideal) v0 v5 (ix2 p q) = (∑ e : Fin 100, v0 (ix3 p e q)) * ((1 / 100 : ℝ) : EReal) + v5 (ix2 0 q) := by
  unfold k1_pay1
  dsimp only
  rw [addf_apply, mulf_apply, broadcast_apply, inv_100]
  rw [shapeCast_self, shapeCast_self]
  refine congrArg₂ (· + ·) (congrArg (· * _) ?_) ?_
  · exact laneSum_apply v0 _ _ p q
  · exact broadcastTo_1b_ab_apply v5 broadcasts_S1x2000_S8x2000 p q

/-- The output block of one point, at cell `p` and gene `q`, from the two input blocks. -/
theorem outBlk_apply (x0 : Vec Ideal S8x100x2000 .f32) (x1 : Vec Ideal S1x2000 .f32) (p : Fin 8) (q : Fin 2000) :
    outBlk (F := Ideal) x0 x1 (ix2 p q) = (∑ e : Fin 100, x0 (ix3 p e q)) * ((1 / 100 : ℝ) : EReal) + x1 (ix2 0 q) := by
  unfold outBlk
  rw [View.canon_unit_zero hz2, View.ld_unit_zero (S := S8x100x2000) hz3, View.ld_unit_zero (S := S1x2000) hz2]
  exact pay_apply x0 x1 p q

/-! ## From blocks to the array

Point `t` of the 32 stages cells `8t … 8t+7` of the transposed embeddings, the whole bias row, and writes rows
`8t … 8t+7` of the result. -/

/-- The result array as one function of the two arrays the region reads: at cell `c` and gene `g`, the 100 components of
    the transposed embeddings at `(c, ·, g)` added, times 1/100, plus the bias row at `g`. -/
def meanRows (xt : (⟨3, ![256, 100, 2000]⟩ : Shape).Idx → EReal) (br : (⟨2, ![1, 2000]⟩ : Shape).Idx → EReal) :
    (⟨2, ![256, 2000]⟩ : Shape).Idx → EReal :=
  fun j => (∑ e : Fin 100, xt (ix3 (n0 := 256) (n2 := 2000) (j 0) e (j 1))) * ((1 / 100 : ℝ) : EReal)
    + br (ix2 (n0 := 1) (n1 := 2000) 0 (j 1))

/-- The three index maps over the grid: the embeddings' window and the result's move one block of 8 cells per point, the
    bias row's stays. -/
theorem idx_facts : ∀ t : Fin cfg1.N, win1_0.index t (0 : Fin 3) = t.val ∧ win1_0.index t (1 : Fin 3) = 0
    ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Blocks

variable {F : FTy → Type} [FloatOps F] [Named F]
variable (Vr : (c : Dev nD) → (b : Ref sig .tc) → Buf (Elt F) ((c : Thread nD τ).loc b))

/-- The embeddings' block at point `t`, at `(p, e, q)`: the transposed array at cell `8t + p`, component `e`, gene `q`. -/
theorem iblk0_apply (c : Dev nD) (t : Fin cfg1.N) (p : Fin 8) (e : Fin 100) (q : Fin 2000) (r : Fin 256) (s : Fin 2000)
    (hr : r.val = 8 * t.val + p.val) (hs : s.val = q.val) :
    (iblk Vr c 0 t : Vec F S8x100x2000 .f32) (ix3 p e q) = (Vr c main_v1 : S256x100x2000.Idx → Elt F .f32) (ix3 r e s) := by
  obtain ⟨e0, e1, e2, -⟩ := idx_facts t
  unfold iblk
  rw [View.read_apply]
  show Vr c main_v1 (((cfg1.win 0).blk t).view.emb (ix3 p e q)) = Vr c main_v1 (ix3 r e s)
  refine congrArg (Vr c main_v1) (funext fun a => Fin.ext ?_)
  match a with
  | ⟨0, _⟩ => show win1_0.index t (0 : Fin 3) * 8 + 1 * p.val = r.val; rw [e0, hr]; omega
  | ⟨1, _⟩ => show win1_0.index t (1 : Fin 3) * 100 + 1 * e.val = e.val; rw [e1]; omega
  | ⟨2, _⟩ => show win1_0.index t (2 : Fin 3) * 2000 + 1 * q.val = s.val; rw [e2, hs]; omega

/-- The bias row's block at any point is the row itself. -/
theorem iblk1_apply (c : Dev nD) (t : Fin cfg1.N) (q : Fin 2000) (s : Fin 2000) (hs : s.val = q.val) :
    (iblk Vr c 1 t : Vec F S1x2000 .f32) (ix2 0 q) = (Vr c main_v2 : S1x2000.Idx → Elt F .f32) (ix2 0 s) := by
  obtain ⟨-, -, -, e3, e4, -⟩ := idx_facts t
  unfold iblk
  rw [View.read_apply]
  show Vr c main_v2 (((cfg1.win 1).blk t).view.emb (ix2 0 q)) = Vr c main_v2 (ix2 0 s)
  refine congrArg (Vr c main_v2) (funext fun a => Fin.ext ?_)
  match a with
  | ⟨0, _⟩ => show win1_1.index t (0 : Fin 2) * 1 + 1 * 0 = 0; rw [e3]
  | ⟨1, _⟩ => show win1_1.index t (1 : Fin 2) * 2000 + 1 * q.val = s.val; rw [e4, hs]; omega

end Blocks

/-- The result's block at point `t`: its element `(p, q)` is the array's at row `8t + p`, column `q`. -/
theorem emb2_val (t : Fin cfg1.N) (p : Fin 8) (q : Fin 2000) :
    ((((cfg1.win 2).blk t).view.emb (ix2 p q) : S256x2000.Idx) 0).val = 8 * t.val + p.val
      ∧ ((((cfg1.win 2).blk t).view.emb (ix2 p q) : S256x2000.Idx) 1).val = q.val := by
  obtain ⟨-, -, -, -, -, e5, e6⟩ := idx_facts t
  constructor
  · show win1_2.index t (0 : Fin 2) * 8 + 1 * p.val = _; rw [e5]; omega
  · show win1_2.index t (1 : Fin 2) * 2000 + 1 * q.val = _; rw [e6]; omega

/-- An index of the result is in point `t`'s block iff each coordinate is in the block's range on its axis. -/
theorem mem_blk2 (t : Fin cfg1.N) (i : S256x2000.Idx) :
    i ∈ ((cfg1.win 2).blk t).view.set ↔ ∀ a : Fin 2, win1_2.index t a * S8x2000.size a ≤ (i a).val
      ∧ (i a).val < win1_2.index t a * S8x2000.size a + S8x2000.size a := by
  show i ∈ ((View.whole main_v3).slice (win1_2.rect t)).set ↔ _
  rw [View.set_slice_whole, Rect.mem_set_unit]
  exact Iff.rfl

/-- Row `r` of the result is written by point `r / 8`. -/
theorem cover2 (i : S256x2000.Idx) :
    ∃ t : Fin cfg1.N, (cfg1.win 2).flush t = true ∧ i ∈ ((cfg1.win 2).blk t).view.set := by
  have hN : cfg1.N = 32 := N_1
  have hi0 : (i 0).val < 256 := (i 0).isLt
  have hi1 : (i 1).val < 2000 := (i 1).isLt
  have ht : (i 0).val / 8 < cfg1.N := by rw [hN]; omega
  obtain ⟨-, -, -, -, -, e5, e6⟩ := idx_facts ⟨(i 0).val / 8, ht⟩
  have e5' : win1_2.index ⟨(i 0).val / 8, ht⟩ (0 : Fin 2) = (i 0).val / 8 := e5
  refine ⟨⟨(i 0).val / 8, ht⟩, flush1_2 _, ?_⟩
  rw [mem_blk2]
  intro a
  match a with
  | ⟨0, _⟩ =>
    show win1_2.index ⟨(i 0).val / 8, ht⟩ (0 : Fin 2) * 8 ≤ (i 0).val
      ∧ (i 0).val < win1_2.index ⟨(i 0).val / 8, ht⟩ (0 : Fin 2) * 8 + 8
    rw [e5']; omega
  | ⟨1, _⟩ =>
    show win1_2.index ⟨(i 0).val / 8, ht⟩ (1 : Fin 2) * 2000 ≤ (i 1).val
      ∧ (i 1).val < win1_2.index ⟨(i 0).val / 8, ht⟩ (1 : Fin 2) * 2000 + 2000
    rw [e6]; omega

section Final

variable (Vr : (c : Dev nD) → (b : Ref sig .tc) → Buf (Elt Ideal) ((c : Thread nD τ).loc b))

/-- What point `t` writes back is block `t` of `meanRows` of the two arrays the region reads. -/
theorem flushed_eq (c : Dev nD) (t : Fin cfg1.N) :
    (dats (F := Ideal) Vr 0 c).flushed 2 t
      = ((cfg1.win 2).blk t).view.read (Elt Ideal) (meanRows (Vr c main_v1) (Vr c main_v2)) := by
  show (cfg1.win 2).cut (grid1.coords t) ((dats Vr 0 c).after 2 t) = _
  rw [after1_2]
  funext y
  obtain ⟨p, q, rfl⟩ : ∃ (p : Fin 8) (q : Fin 2000), y = ix2 p q := ⟨y 0, y 1, eq_ix2 (n0 := 8) (n1 := 2000) y⟩
  rw [View.read_apply]
  obtain ⟨h0, h1⟩ := emb2_val t p q
  show outBlk (iblk Vr c 0 t) (iblk Vr c 1 t) (ix2 p q)
    = meanRows (Vr c main_v1) (Vr c main_v2) (((cfg1.win 2).blk t).view.emb (ix2 p q))
  refine (outBlk_apply (iblk Vr c 0 t) (iblk Vr c 1 t) p q).trans ?_
  unfold meanRows
  refine congrArg₂ (· + ·) (congrArg (· * _) (Finset.sum_congr rfl fun e _ => ?_)) ?_
  · exact iblk0_apply Vr c t p e q _ _ h0 h1
  · exact iblk1_apply Vr c t q _ h1

/-- The result array after the 32 points: `meanRows` of the two arrays the region reads. -/
theorem final (c : Dev nD) :
    (dats (F := Ideal) Vr 0 c).arrAt 2 cfg1.N = meanRows (Vr c main_v1) (Vr c main_v2) :=
  (dats (F := Ideal) Vr 0 c).arrAt_eq_of_cover 2 (meanRows (Vr c main_v1) (Vr c main_v2))
    (fun t _ => flushed_eq Vr c t) cover2

end Final

/-! ## The two host operations in front of the region, and the specification

The region reads the embeddings with component and gene swapped, and the gathered bias row under a leading unit axis;
read at an index, the first gives back the embeddings at `(cell, gene, component)` and the second the bias row at the
gene. -/

/-- `meanRows` of the transposed embeddings and of the bias row under a unit axis is the specification's result. -/
theorem meanRows_G (x : FVec Ideal S256x2000x100 .f32) (ix : IVec S2000 32) (b : FVec Ideal S128 .f32) :
    meanRows (transpose S256x100x2000 [0, 2, 1] x transposes_S256x2000x100_S256x100x2000_0_2_1)
        (shapeCast S1x2000 (Cert.Spec.biasRow ix b) shapeCasts_S2000_S1x2000)
      = Cert.Spec.G x ix b := by
  funext j
  unfold meanRows Cert.Spec.G
  refine congrArg₂ (· + ·) (congrArg (· * _) (Finset.sum_congr rfl fun e _ => ?_)) ?_
  · exact transpose_ix3_021_apply x transposes_S256x2000x100_S256x100x2000_0_2_1 (j 0) e (j 1)
  · exact shapeCast_a_1a_apply (Cert.Spec.biasRow ix b) shapeCasts_S2000_S1x2000 0 (j 1)

end Cert.Proof.KI

end
-- ==== Proof.KB.Common.lean ====
/-
  The program as the launch theorem reads it, and the ghost state the proof is carried in.

  The device runs three kinds of threads side by side: the TensorCore (the host operations, the start of the gather
  and the wait for it, then the pipelined mean), two sequencers and thirty-two vector subcores, of which ONE — subcore 0
  of SparseCore 0 — gathers the bias row and the others return at once. Three ghost components ride along: the
  handshakes between the TensorCore, the sequencers and the subcores; the pipeline's staging cells; and plain counters
  for the gathering subcore's three local copies, each waited for before the next starts.
-/
import proofs.«206730_g8289286881952_cont_9to1_m_1135_20_alg».proof.Proof.Gen.Kernel
import proofs.«206730_g8289286881952_cont_9to1_m_1135_20_alg».proof.Proof.Gen.Kernel.Skeleton
import proofs.«206730_g8289286881952_cont_9to1_m_1135_20_alg».proof.Proof.Gen.Kernel.Launch
import proofs.«206730_g8289286881952_cont_9to1_m_1135_20_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the local copies' counters -/

abbrev UH : Type := URounds (GSem nD τ sig) ℕ
abbrev UP : Type := URounds (GSem nD τ sig) Unit
abbrev UU : Type := UH × (UP × Counters)

/-- The model the whole proof is stated in. -/
abbrev MM (F : FTy → Type) : Type := MT nD τ sig (HIx 1) (Elt F) ℕ UU ℕ

/-- The handshakes' rounds: the left component. -/
abbrev EH : Emb UH (MM F) := embL
/-- The pipeline's rounds: the left of the right component. -/
def EP : Emb UP (MM F) := (Emb.inl : Emb UP (UP × Counters)).trans embR

instance EP_landsIn : (EP : Emb UP (MM F)).LandsIn (upEmb : UEmb _ (MM F)) := by unfold EP embR; infer_instance

/-- The pipeline's admissible tables: it has none. -/
abbrev adm : (p : Fin 1) → (pcfgs (F := F) p).Adm := fun p => (cfgs p).toPCfg_adm

end Cert.Proof.KB

end
-- ==== Proof.KB.Tile.lean ====
/-
  The gathering subcore's task, and the idle subcores'.

  Subcore 0 of SparseCore 0 copies the 2000 index words and the 128-entry bias table into its own memory, then walks the
  indices sixteen at a time: trip `k` reads words `16k … 16k+15`, checks that each names a table entry, reads the
  table at those sixteen places and stores the sixteen values at positions `16k … 16k+15` of a third scratch. After 125
  trips that scratch holds the whole bias row, which one last copy writes out. Every other subcore returns at once.
-/
import proofs.«206730_g8289286881952_cont_9to1_m_1135_20_alg».proof.Proof.KB.Common
import proofs.«206730_g8289286881952_cont_9to1_m_1135_20_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Spec (biasRow)

variable {F : FTy → Type}

local notation "𝕄" => MM F

variable (m : (ℓ : Loc nD τ sig) → Buf (Elt F) ℓ) (ρ : Dev nD → PrngReg)

/-! ## The arrays the gather touches -/

abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0

/-- The bias row of the launch memory: gene `g` takes the table entry its index word names. -/
def rowOf (d : Dev nD) : Buf (Elt F) (v0Loc d) := biasRow (m (a1Loc d)) (m (a2Loc d))

variable [FloatOps F]

abbrev a1V : Memref sig .scVector .hbm S2000 .i32 := Memref.whole main_arg1_scv
abbrev a2V : Memref sig .scVector .hbm S128 .f32 := Memref.whole main_arg2_scv
abbrev v0V : Memref sig .scVector .hbm S2000 .f32 := Memref.whole main_v0_scv
abbrev sI : Memref sig .scVector .vmem S2000 .i32 := Memref.whole cc0_scratch0
abbrev sB : Memref sig .scVector .vmem S128 .f32 := Memref.whole cc0_scratch1
abbrev sO : Memref sig .scVector .vmem S2000 .f32 := Memref.whole cc0_scratch2

abbrev a1Pts (d : Dev nD) : sProp 𝕄 := a1Loc d ↦{fullShare} m (a1Loc d)
abbrev a2Pts (d : Dev nD) : sProp 𝕄 := a2Loc d ↦{fullShare} m (a2Loc d)
abbrev v0Pts (d : Dev nD) (f : Buf (Elt F) (v0Loc d)) : sProp 𝕄 := v0Loc d ↦{fullShare} f

/-- Every index word names a table entry. -/
def IdxOK : Prop := ∀ (d : Dev nD) g, ((m (a1Loc d)) g).toNat < 128

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cXcell (d : Dev nD) (c : Fin τ.nSC) (i : Fin τ.nSub) : GSem nD τ sig := (V d c i, .dma cc0_scoped1.sem)
abbrev cBcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cAcell d (cV L) (jV L)) 0 ∗ semVal (cXcell d (cV L) (jV L)) 0 ∗ semVal (cBcell d (cV L) (jV L)) 0
          ∗ bigSep ((((ownCells (V d (cV L) (jV L))).erase (cAcell d (cV L) (jV L))).erase (cXcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cXcell]; decide, (mem_ownCells (g := cXcell d (cV L) (jV L))).mpr ⟨rfl, by
      show (SemLoc.dma cc0_scoped1.sem : SemLoc sig).isScoped .scVector = true; decide⟩⟩),
    SparseCore.bigSep_erase' (Finset.mem_erase.mpr ⟨by simp [cXcell, cBcell]; decide, Finset.mem_erase.mpr ⟨by simp [cAcell, cBcell]; decide,
      (mem_ownCells (g := cBcell d (cV L) (jV L))).mpr ⟨rfl, by show (SemLoc.dma cc0_scoped2.sem : SemLoc sig).isScoped .scVector = true; decide⟩⟩⟩)]

omit [FloatOps F] in
/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The arrays as a subcore's memrefs address them are the device's arrays. -/
theorem pts_a1 (f : Buf (Elt F) (a1Loc d)) :
    ((a1V).view.loc (V d (cV L) (jV L)) ↦{fullShare} f : sProp 𝕄) = a1Loc d ↦{fullShare} f := by
  simp only [Memref.view_whole, View.set_whole]
omit [FloatOps F] in
theorem pts_a2 (f : Buf (Elt F) (a2Loc d)) :
    ((a2V).view.loc (V d (cV L) (jV L)) ↦{fullShare} f : sProp 𝕄) = a2Loc d ↦{fullShare} f := by
  simp only [Memref.view_whole, View.set_whole]
omit [FloatOps F] in
theorem pts_v0 (f : Buf (Elt F) (v0Loc d)) :
    ((v0V).view.loc (V d (cV L) (jV L)) ↦{fullShare} f : sProp 𝕄) = v0Loc d ↦{fullShare} f := by
  simp only [Memref.view_whole, View.set_whole]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The subcore's thread. -/
abbrev thrV (d : Dev nD) (L : grid0.Coords) : Thread nD τ := V d (cV L) (jV L)

/-- The index words and the table as the subcore's scratches hold them after the two copies: the arrays' own contents. -/
def idxCopy (d : Dev nD) (L : grid0.Coords) : Buf (Elt F) ((V d (cV L) (jV L)).loc cc0_scratch0) := fun j => m (a1Loc d) j
def tabCopy (d : Dev nD) (L : grid0.Coords) : Buf (Elt F) ((V d (cV L) (jV L)).loc cc0_scratch1) := fun j => m (a2Loc d) j

/-- The loop's invariant before trip `k`: the two copied scratches untouched, the third holding the bias row at every
    position below `16k`; what the subcore owes unchanged, its recorded waits grown only by waits of its own. -/
def inv (d : Dev nD) (L : grid0.Coords) (s0 : Buf (Elt F) ((V d (cV L) (jV L)).loc cc0_scratch0)) (s1 : Buf (Elt F) ((V d (cV L) (jV L)).loc cc0_scratch1))
    (O : CellTallies nD τ sig (HIx 1)) (W : Waits sig (HIx 1)) (k : Nat) (_ : PUnit) : sProp 𝕄 :=
  iprop(Transfers.MayWaits (V d (cV L) (jV L)) (none : HIx 1) O
    ∗ ((sI).view.loc (V d (cV L) (jV L)) ↦{fullShare} s0)
    ∗ ((sB).view.loc (V d (cV L) (jV L)) ↦{fullShare} s1)
    ∗ (∃ f : Buf (Elt F) ((V d (cV L) (jV L)).loc cc0_scratch2), ⌜∀ j : S2000.Idx, (j 0).val < 16 * k → f j = biasRow s0 s1 j⌝ ∗ (sO).view.loc (V d (cV L) (jV L)) ↦{fullShare} f)
    ∗ ∃ W', ⌜∀ p ∈ W', p ∈ W ∨ p.2 = none⌝ ∗ owes (V d (cV L) (jV L)) O W')

omit [FloatOps F] in
/-- The table scratch as the indexed read addresses it. -/
theorem pts_sB_access (f : Buf (Elt F) ((V d (cV L) (jV L)).loc cc0_scratch1)) :
    (((sB).access (.whole S128)).loc (V d (cV L) (jV L)) ↦{fullShare} f : sProp 𝕄) = (sB).view.loc (V d (cV L) (jV L)) ↦{fullShare} f := rfl

/-- A trip's check passes: the sixteen words it read are index words of the launch memory, each below 128. -/
theorem chk_of (k : Fin k0_t1_loop.trips) (k0_h1 : k0_cond1 L = 1#1) (hpre : IdxOK m) :
    k0_chk1 L (View.readAt (Elt F) (sI).view (Rect.unit (s := S2000) (k0_off1 k) S16.size (k0_off1_inb L k k0_h1)).toLoadRect (idxCopy m d L)) := by
  intro _ a x
  obtain rfl : a = 0 := Subsingleton.elim _ _
  show (View.readAt (Elt F) (sI).view (Rect.unit (s := S2000) (k0_off1 k) S16.size (k0_off1_inb L k k0_h1)).toLoadRect (idxCopy m d L) x).toNat < 128
  simp only [View.readAt_apply, Memref.view_whole, View.read_whole]
  exact hpre d _

/-- One trip extends the bias row by sixteen positions: a position inside `[16k, 16k+16)` reads the table at the word the
    trip loaded for it, which is that position's own index word; a position below keeps what the earlier trips left. -/
theorem step_val (k : Fin k0_t1_loop.trips) (k0_h1 : k0_cond1 L = 1#1) (hpre : IdxOK m)
    (f : Buf (Elt F) ((V d (cV L) (jV L)).loc cc0_scratch2))
    (hf : ∀ j : S2000.Idx, (j 0).val < 16 * k.val → f j = biasRow (idxCopy m d L) (tabCopy m d L) j)
    (h : ∀ a x, ((![View.readAt (Elt F) (sI).view (Rect.unit (s := S2000) (k0_off1 k) S16.size (k0_off1_inb L k k0_h1)).toLoadRect (idxCopy m d L)] : Fin 1 → IVec S16 32) a x).toNat < S128.size a)
    (j : S2000.Idx) (hj : (j 0).val < 16 * (k.val + 1)) :
    (sO).view.writes (Elt F) f
      [⟨Rect.unit (s := S2000) (k0_off2 k) S16.size (k0_off2_inb L k k0_h1),
        loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h⟩] j
      = biasRow (idxCopy m d L) (tabCopy m d L) j := by
  have hk : k.val < 125 := Nat.lt_of_lt_of_le k.isLt k0_t1_abs.2.1
  have hjlt : (j 0).val < 2000 := (j 0).isLt
  by_cases hin : 16 * k.val ≤ (j 0).val
  · -- inside the sixteen positions the trip writes
    have hx : (j 0).val - 16 * k.val < 16 := by omega
    let x : S16.Idx := ValueIdx.ix1 (n := 16) ⟨(j 0).val - 16 * k.val, hx⟩
    have hemb : (Rect.unit (s := S2000) (k0_off2 k) S16.size (k0_off2_inb L k k0_h1)).emb x = j := by
      funext a
      obtain rfl : a = 0 := Subsingleton.elim _ _
      apply Fin.ext
      show k0_off2 k 0 + 1 * (x 0).val = (j 0).val
      rw [k0_off2_eq]
      show 16 * k.val + 1 * ((j 0).val - 16 * k.val) = (j 0).val
      omega
    have hr := View.read_writes_cons_emb (v := (sO).view) (Val := Elt F) (f := f)
      (Rect.unit (s := S2000) (k0_off2 k) S16.size (k0_off2_inb L k k0_h1))
      (loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h) [] x
    rw [hemb] at hr
    simp only [Memref.view_whole, View.read_whole] at hr
    refine hr.trans ?_
    have hidx : (Rect.unit (s := S2000) (k0_off1 k) S16.size (k0_off1_inb L k k0_h1)).toLoadRect.idx x = j := by
      funext a
      obtain rfl : a = 0 := Subsingleton.elim _ _
      apply Fin.ext
      rw [LoadRect.idx_apply]
      show k0_off1 k 0 + 1 * (x 0).val = (j 0).val
      rw [k0_off1_eq]
      show 16 * k.val + 1 * ((j 0).val - 16 * k.val) = (j 0).val
      omega
    have hw : View.readAt (Elt F) (sI).view (Rect.unit (s := S2000) (k0_off1 k) S16.size (k0_off1_inb L k k0_h1)).toLoadRect (idxCopy m d L) x = idxCopy m d L j := by
      simp only [View.readAt_apply, Memref.view_whole, View.read_whole]
      rw [hidx]
    have hlt : ((idxCopy m d L) j).toNat < 128 := hpre d _
    rw [Cert.Spec.biasRow_of_lt _ _ _ hlt]
    unfold loadIdx
    show (tabCopy m d L) _ = (tabCopy m d L) _
    congr 1
    funext a
    have ha : a = ⟨0, Nat.one_pos⟩ := Fin.ext (Nat.lt_one_iff.mp a.isLt)
    subst ha
    apply Fin.ext
    show 0 + 1 * (View.readAt (Elt F) (sI).view (Rect.unit (s := S2000) (k0_off1 k) S16.size (k0_off1_inb L k k0_h1)).toLoadRect (idxCopy m d L) x).toNat = ((idxCopy m d L) j).toNat
    rw [hw]
    omega
  · -- below: the earlier trips' value is kept
    have hlow : (j 0).val < 16 * k.val := by omega
    have hr := View.read_writes_apply_of_forall_not_mem (v := (sO).view) (Val := Elt F) (f := f) j
      [⟨Rect.unit (s := S2000) (k0_off2 k) S16.size (k0_off2_inb L k k0_h1),
        loadIdx (View.read (Elt F) ((sB).access (Rect.whole S128)) (tabCopy m d L))
          ![View.readAt (Elt F) (sI).view (Rect.unit (s := S2000) (k0_off1 k) S16.size (k0_off1_inb L k k0_h1)).toLoadRect (idxCopy m d L)] h⟩]
      (by
        intro p hp
        rw [List.mem_singleton] at hp
        subst hp
        intro hmem
        have h1 := (Rect.mem_set_unit (s := S2000) (off := k0_off2 k) (size := S16.size) (inb := k0_off2_inb L k k0_h1) (i := j)).mp hmem (⟨0, Nat.one_pos⟩ : Fin 1)
        rw [k0_off2_eq] at h1
        have h2 : 16 * k.val ≤ (j 0).val := h1.1
        omega)
    simp only [Memref.view_whole, View.read_whole] at hr
    exact hr.trans (hf j hlow)

/-- After the last trip the scratch is the bias row everywhere, and the copy-out writes exactly that. -/
theorem out_val (f : Buf (Elt F) ((V d (cV L) (jV L)).loc cc0_scratch2))
    (hf : ∀ j : S2000.Idx, (j 0).val < 16 * k0_t1_loop.trips → f j = biasRow (idxCopy m d L) (tabCopy m d L) j)
    (g : Buf (Elt F) (v0Loc d)) (w : S2000.Idx → Elt F .f32) (hw : w = fun j => f j) :
    View.write (Elt F) (v0V).view g w Finset.univ = rowOf m d := by
  subst hw
  rw [View.write_whole_univ]
  funext j
  have ht : k0_t1_loop.trips = 125 := by decide
  have hj : (j 0).val < 2000 := (j 0).isLt
  exact hf j (by rw [ht]; omega)

/-- The gathering subcore's task. -/
theorem tile_gather (hF : (K (F := F)).Facts) (k0_h1 : k0_cond1 L = 1#1) (hpre : IdxOK m) (O : CellTallies nD τ sig (HIx 1)) (W : Waits sig (HIx 1)) (hO : ∀ g, O g none = 0) :
    iprop(levAts (K (F := F)).L (K (F := F)).lev ∗ emp
        ∗ (a1Pts m d ∗ a2Pts m d ∗ v0Pts d (m (v0Loc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__bias_gather_sc L a1V (Memref.isWhole_whole _) a2V (Memref.isWhole_whole _) v0V (Memref.isWhole_whole _)
            sI (Memref.isWhole_whole _) sB (Memref.isWhole_whole _) sO (Memref.isWhole_whole _) cc0_scoped0 cc0_scoped1 cc0_scoped2)
          fun _ => iprop((a1Pts m d ∗ a2Pts m d ∗ v0Pts d (rowOf m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__bias_gather_sc_eq_skeleton]; unfold cc0__bias_gather_sc_skel
  rw [(K (F := F)).scopedBufs_V hF d (cV L) (jV L), SparseCore.Cfg.scopedSems0_V (Val := Elt F) d (cV L) (jV L), ownSems0_V, ownBufs_V]
  iintro ⟨#Hlv, -, ⟨Ha1, Ha2, Hv0⟩, ⟨⟨%fs, Hs⟩, ⟨%fx, Hsx⟩, ⟨%fc, Hc⟩, Hbufs⟩, ⟨HsemA, HsemX, HsemB, Hsems⟩, HO⟩
  ihave Hmw := ((K (F := F)).mayWaits_none (thr := V d (cV L) (jV L)) hO) $$ Hlv
  ihave Ha1' := (Entails.of_eq (pts_a1 (F := F) d L _).symm) $$ Ha1
  ihave Ha2' := (Entails.of_eq (pts_a2 (F := F) d L _).symm) $$ Ha2
  ihave Hv0' := (Entails.of_eq (pts_v0 (F := F) d L _).symm) $$ Hv0
  ihave Hs' := (Entails.of_eq (pts_sI (F := F) d L _).symm) $$ Hs
  ihave Hsx' := (Entails.of_eq (pts_sB (F := F) d L _).symm) $$ Hsx
  ihave Hc' := (Entails.of_eq (pts_sO (F := F) d L _).symm) $$ Hc
  sl_exec
  have hs0 : View.write (Elt F) (sI).view fs (tile_gather.sl.dma0 m d) Finset.univ = idxCopy m d L := by
    unfold tile_gather.sl.dma0
    rw [ReadAs.apply_same]
    exact View.write_whole_univ _ _ _
  have hs1 : View.write (Elt F) (sB).view fx (tile_gather.sl.dma0_1 m d) Finset.univ = tabCopy m d L := by
    unfold tile_gather.sl.dma0_1
    rw [ReadAs.apply_same]
    exact View.write_whole_univ _ _ _
  rw [hs0, hs1]
  sl_for (inv d L (idxCopy m d L) (tabCopy m d L) O W) $$ [Hmw Hs' Hsx' Hc' HO]
  case region =>
    intro k hk
    unfold inv
    iintro ⟨Hmw, Hs, Hsx, ⟨%f, %hf, Hc⟩, %W', %hW', HO⟩
    sl_exec
    rw [wp_assume_of _ _ _ _ (chk_of m d L k k0_h1 hpre)]
    ihave Hsx' := (Entails.of_eq (pts_sB_access (F := F) d L _).symm) $$ Hsx
    iapply (SparseCore.wp_vectorLoadIdx 𝒱₀ (V d (cV L) (jV L)) none Set.univ (base := (sB)) (S := Finset.univ) (q := fullShare) (Finset.subset_univ _)) $$ Hsx'; iintro Hsx'
    ihave Hsx := (Entails.of_eq (pts_sB_access (F := F) d L _)) $$ Hsx'
    sl_exec
    sl_step
    isplitl [Hmw]; · iexact Hmw
    isplitl [Hs]; · iexact Hs
    isplitl [Hsx]; · iexact Hsx
    isplitl [Hc]
    · iexists _; isplitr
      swap; · iexact Hc
      ipureintro
      exact step_val m d L k k0_h1 hpre f hf _
    iexists W'; isplitr
    · ipureintro; exact hW'
    · iexact HO
  · unfold inv
    isplitl [Hmw]; · iexact Hmw
    isplitl [Hs']; · iexact Hs'
    isplitl [Hsx']; · iexact Hsx'
    isplitl [Hc']
    · iexists fc; isplitr
      · ipureintro; intro j hj; omega
      · iexact Hc'
    iexists _; isplitr
    swap; · iexact HO
    ipureintro; intro p hp
    rcases Finset.mem_insert.mp hp with rfl | hp
    · exact .inr rfl
    rcases Finset.mem_insert.mp hp with rfl | hp
    · exact .inr rfl
    · exact .inl hp
  iintro %_ HI
  unfold inv
  icases HI with ⟨-, Hs, Hsx, ⟨%f, %hf, Hc⟩, %W', %hW', HO⟩
  sl_exec
  have hv0 : View.write (Elt F) (v0V).view (m (v0Loc d)) (tile_gather.sl.dma0_2 d L f) Finset.univ = rowOf m d := by
    refine out_val m d L f hf _ _ ?_
    unfold tile_gather.sl.dma0_2
    rw [ReadAs.apply_same]
    funext j
    simp only [Memref.view_whole, View.read_whole]
  rw [hv0]
  sl_step
  isplitl [Ha1' Ha2' Hv0']
  · isplitl [Ha1']; · iapply (Entails.of_eq (pts_a1 (F := F) d L _)); iexact Ha1'
    isplitl [Ha2']; · iapply (Entails.of_eq (pts_a2 (F := F) d L _)); iexact Ha2'
    iapply (Entails.of_eq (pts_v0 (F := F) d L _)); iexact Hv0'
  isplitl [Hs Hsx Hc Hbufs]
  · isplitl [Hs]; · iexists _; iexact Hs
    isplitl [Hsx]; · iexists _; iexact Hsx
    isplitl [Hc]; · iexists _; iexact Hc
    iexact Hbufs
  isplitl [HsemA HsemX HsemB Hsems]
  · isplitl [HsemA]; · iexact HsemA
    isplitl [HsemX]; · iexact HsemX
    isplitl [HsemB]; · iexact HsemB
    iexact Hsems
  iexists _; isplitr
  swap; · iexact HO
  ipureintro; intro p hp
  rcases Finset.mem_insert.mp hp with rfl | hp
  · exact .inr rfl
  · exact hW' p hp

end Tile

end Cert.Proof.KB

end
-- ==== Proof.KB.Region.lean ====
/-
  The pipelined mean: what one grid point does, and the data the pipeline's proof is carried over.

  The region walks 32 points. At point `t` the pipeline stages cells `8t … 8t+7` of the transposed embeddings
  (`[8, 100, 2000]`: cell, component, gene) and — once, at the first point — the bias row `[1, 2000]`; the body sums the
  100 components of each (cell, gene), scales the sum by the constant that stands for 1/100, adds the gene's bias and stores the `[8, 2000]`
  block, which the pipeline writes back as rows `8t … 8t+7` of the result. The body reads its two inputs whole and
  overwrites its output whole: what the output block holds afterwards is one pure function of the two input blocks.
-/
import proofs.«206730_g8289286881952_cont_9to1_m_1135_20_alg».proof.Proof.KB.Common

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Pipeline (Dat Cfg Window BodyObligation cellOf)
open Idealize.ShloMosaic.TcCoe

variable {F : FTy → Type} [FloatOps F]

local notation "𝕄" => MM F

-- The TensorCore's arrays as the region finds them, per device: a parameter here; the launch states which.
variable (Vr : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vr c (Pipeline.arrRef spec1 w))

/-! ## The body's one store -/

abbrev rOut : Rect S8x2000 := Rect.unit (s := S8x2000) ![0, 0] S8x2000.size inb_S8x2000_S8x2000_0_0
abbrev rIn0 : Rect S8x100x2000 := Rect.unit (s := S8x100x2000) ![0, 0, 0] S8x100x2000.size inb_S8x100x2000_S8x100x2000_0_0_0
abbrev rIn1 : Rect S1x2000 := Rect.unit (s := S1x2000) ![0, 0] S1x2000.size inb_S1x2000_S1x2000_0_0

/-- The output block after the body, from the two input blocks: its one store over the whole block. -/
def outBlk (x0 : Vec F S8x100x2000 .f32) (x1 : Vec F S1x2000 .f32) : Vec F S8x2000 .f32 :=
  View.canon [⟨rOut, k1_pay1 (View.ld x0 rIn0) (View.ld x1 rIn1)⟩]

/-- The store covers the block. -/
theorem cover_out (p0 : Vec F S8x2000 .f32) (y : S8x2000.Idx) :
    ∃ pc ∈ ([⟨rOut, p0⟩] : List (View.Piece (Elt F) S8x2000 .f32)), y ∈ pc.1.set :=
  View.cover_of_tiled [⟨rOut, p0⟩] S8x2000.size (by rfl) y

/-! ## The body's triple -/

set_option maxHeartbeats 1000000 in
/-- The body on whole staging memrefs — the inputs' at contents `x0`, `x1`, the output's at anything — runs to the
    continuation holding the inputs' as they were and the output's at `outBlk x0 x1`. -/
theorem sound_kernel (c : Dev nD) (E : Set ℕ) (i : grid1.Coords) (arg1 : Memref sig .tc .vmem S8x100x2000 .f32) (harg1 : arg1.IsWhole) (arg2 : Memref sig .tc .vmem S1x2000 .f32) (harg2 : arg2.IsWhole) (arg3 : Memref sig .tc .vmem S8x2000 .f32) (harg3 : arg3.IsWhole)
    (x0 : Vec F S8x100x2000 .f32) (x1 : Vec F S1x2000 .f32) (Kq : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kq ⟨⟩))
      ⊢ wp frame (wpE (defs₀ (F := F)) Variants.none c none) E (cc1__mean_kernel i arg1 harg1 arg2 harg2 arg3 harg3) Kq := by
  simp only [cc1__mean_kernel_eq_skeleton]; unfold cc1__mean_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer at its block and the output's at `outBlk` of the input blocks; nothing carried from point to point;
    nothing owed; full shares; the waits the core has recorded by then all at a level of at most 8 (the handshakes of the
    one call before the region sit there; the pipeline's own waits sit at level 0). -/
def dats (_ : Fin 1) (c : Dev nD) : Dat τ (Elt F) (HIx 1) ℕ UU ℕ cfg1 c where
  A w := Vr c (Pipeline.arrRef spec1 w)
  after w t := match w with
    | ⟨0, _⟩ => iblk Vr c 0 t
    | ⟨1, _⟩ => iblk Vr c 1 t
    | ⟨2, _⟩ => outBlk (iblk Vr c 0 t) (iblk Vr c 1 t)
  Φ _ := iprop(emp)
  q _ := fullShare
  owed _ := 0
  recorded _ := {p | (K (F := F)).lev ((c.tc : Thread nD τ), p.1) p.2 ≤ 8}

theorem A_eq (c : Dev nD) (w : Fin cfg1.W) : (dats Vr 0 c).A w = Vr c (Pipeline.arrRef spec1 w) := by
  dsimp only [dats]

theorem after1_0 (c : Dev nD) (t : Fin cfg1.N) : (dats Vr 0 c).after 0 t = iblk Vr c 0 t := by dsimp only [dats]
theorem after1_1 (c : Dev nD) (t : Fin cfg1.N) : (dats Vr 0 c).after 1 t = iblk Vr c 1 t := by dsimp only [dats]
theorem after1_2 (c : Dev nD) (t : Fin cfg1.N) : (dats Vr 0 c).after 2 t = outBlk (iblk Vr c 0 t) (iblk Vr c 1 t) := by dsimp only [dats]

/-- Each input's current staging buffer holds its block at every point, fetched there or not. -/
theorem before1_0 (c : Dev nD) (t : Fin cfg1.N) (d) : (dats Vr 0 c).before 0 t d = iblk Vr c 0 t :=
  ((dats Vr 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats Vr 0 c).before 1 t d = iblk Vr c 1 t :=
  ((dats Vr 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-! ## The body obligation, at a generic point -/

def bodyPre (c : Dev nD) (t : Fin cfg1.N) : sProp 𝕄 :=
  iprop((dats Vr 0 c).Φ t.castSucc ∗ (dats Vr 0 c).owesAt none t.castSucc
    ∗ (∃ d, owns (c : Thread nD τ) (st1_0 t) fullShare ((dats Vr 0 c).before 0 t d))
    ∗ (∃ d, owns (c : Thread nD τ) (st1_1 t) fullShare ((dats Vr 0 c).before 1 t d))
    ∗ (∃ d, owns (c : Thread nD τ) (st1_2 t) fullShare ((dats Vr 0 c).before 2 t d)))

def bodyPost (c : Dev nD) (t : Fin cfg1.N) : sProp 𝕄 :=
  iprop((dats Vr 0 c).Φ t.succ ∗ (dats Vr 0 c).owesAt none t.succ
    ∗ owns (c : Thread nD τ) (st1_0 t) fullShare ((dats Vr 0 c).after 0 t)
    ∗ owns (c : Thread nD τ) (st1_1 t) fullShare ((dats Vr 0 c).after 1 t)
    ∗ owns (c : Thread nD τ) (st1_2 t) fullShare ((dats Vr 0 c).after 2 t))

/-- The body at any point: the inputs' memrefs hold their blocks, so `sound_kernel` applies; what the core owes passes
    through unread. -/
theorem sound_body (c : Dev nD) (t : Fin cfg1.N) :
    bodyPre Vr c t ⊢ wp frame (wpE (defs₀ (F := F)) Variants.none c none) Set.univ (bodyAt1 t) (fun _ => bodyPost Vr c t) := by
  unfold bodyPre bodyPost bodyAt1
  simp only [before1_0, before1_1]
  rw [show (dats Vr 0 c).Φ t.succ = (dats Vr 0 c).Φ t.castSucc from rfl,
    show (dats Vr 0 c).owesAt none t.succ = (dats Vr 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk Vr c 0 t) (iblk Vr c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) Vr 0 c) (defs₀ (F := F)) Variants.none none Set.univ := fun t => by
  rw [bigSep_W1, bigSep_W1]
  exact sound_body Vr c t

end Cert.Proof.KB

end
-- ==== Proof.KB.Launch.lean ====
/-
  The launch: the handshakes' payloads, each subcore's obligation, the TensorCore's thread, and the run.

  The TensorCore hands SparseCore 0 the index words, the bias table and the row to fill; its sequencer passes all three
  to subcore 0 and nothing to the others; subcore 0 brings the row back filled (the bias row of the launch memory), and
  the TensorCore goes on: it transposes the embeddings, reshapes the row to `[1, 2000]` and runs the pipelined mean.
-/
import proofs.«206730_g8289286881952_cont_9to1_m_1135_20_alg».proof.Proof.KB.Tile
import proofs.«206730_g8289286881952_cont_9to1_m_1135_20_alg».proof.Proof.KB.Region

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Pipeline (Dat Cfg Window BodyObligation cellOf)
open Cert.Spec (biasRow)

variable {F : FTy → Type}

local notation "𝕄" => MM F

variable (m : (ℓ : Loc nD τ sig) → Buf (Elt F) ℓ) (ρ : Dev nD → PrngReg)

/-! ## What the handshakes carry -/

/-- The three arrays of the gather, the row as launched; and the row filled. -/
abbrev gatherIn (d : Dev nD) : sProp 𝕄 := iprop(a1Pts m d ∗ a2Pts m d ∗ v0Pts d (m (v0Loc d)))
abbrev gatherOut (d : Dev nD) : sProp 𝕄 := iprop(a1Pts m d ∗ a2Pts m d ∗ v0Pts d (rowOf m d))

/-- SparseCore number `c` takes the arrays if it is SparseCore 0, and its subcore `i` if it is subcore 0 of that. -/
def stCore (d : Dev nD) (c : ℕ) : sProp 𝕄 := if c = 0 then gatherIn m d else iprop(emp)
def dnCore (d : Dev nD) (c : ℕ) : sProp 𝕄 := if c = 0 then gatherOut m d else iprop(emp)
def goTile (d : Dev nD) (c i : ℕ) : sProp 𝕄 := if c = 0 ∧ i = 0 then gatherIn m d else iprop(emp)
def tdTile (d : Dev nD) (c i : ℕ) : sProp 𝕄 := if c = 0 ∧ i = 0 then gatherOut m d else iprop(emp)

instance stCore_storable (d : Dev nD) (c : ℕ) : BI.Storable (upEmb : UEmb _ 𝕄) (stCore m d c) := by unfold stCore; split <;> infer_instance
instance dnCore_storable (d : Dev nD) (c : ℕ) : BI.Storable (upEmb : UEmb _ 𝕄) (dnCore m d c) := by unfold dnCore; split <;> infer_instance
instance goTile_storable (d : Dev nD) (c i : ℕ) : BI.Storable (upEmb : UEmb _ 𝕄) (goTile m d c i) := by unfold goTile; split <;> infer_instance
instance tdTile_storable (d : Dev nD) (c i : ℕ) : BI.Storable (upEmb : UEmb _ 𝕄) (tdTile m d c i) := by unfold tdTile; split <;> infer_instance

def P : (K (F := F)).Pay (nD := nD) (Val := Elt F) (Name := ℕ) (U := UU) where
  st := fun _ d c => stCore m d c.val
  dn := fun _ d c => dnCore m d c.val
  go := fun _ d c i => goTile m d c.val i.val
  td := fun _ d c i => tdTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

variable [FloatOps F]

/-! ## The idle subcores -/

/-- A subcore that is not subcore 0 of SparseCore 0 takes the other branch and returns. -/
theorem tile_idle (d : Dev nD) (L : grid0.Coords) (k0_h1 : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__bias_gather_sc L a1V (Memref.isWhole_whole _) a2V (Memref.isWhole_whole _) v0V (Memref.isWhole_whole _)
            sI (Memref.isWhole_whole _) sB (Memref.isWhole_whole _) sO (Memref.isWhole_whole _) cc0_scoped0 cc0_scoped1 cc0_scoped2)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__bias_gather_sc_eq_skeleton]; unfold cc0__bias_gather_sc_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__bias_gather_sc (coordsV c s)
          a1V (Memref.isWhole_whole _) a2V (Memref.isWhole_whole _) v0V (Memref.isWhole_whole _)
          sI (Memref.isWhole_whole _) sB (Memref.isWhole_whole _) sO (Memref.isWhole_whole _) cc0_scoped0 cc0_scoped1 cc0_scoped2) ⟨⟩ c s := rfl

/-- The body's branch is taken exactly on subcore 0 of SparseCore 0. -/
theorem cond_iff : ∀ (c : Fin (grid0.bound 0)) (s : Fin (grid0.bound 1)), k0_cond1 (coordsV c s) = 1#1 ↔ c.val = 0 ∧ s.val = 0 := by
  decide

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : IdxOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goTile m d c.val i.val ∗ _) ⊢ wp _ _ _ _ (fun _ => iprop(tdTile m d c.val i.val ∗ _))
  by_cases h0 : c.val = 0 ∧ i.val = 0
  · rw [show goTile m d c.val i.val = gatherIn m d from if_pos h0, show tdTile m d c.val i.val = gatherOut m d from if_pos h0]
    exact (tile_gather m d (coordsV ⟨_, hc.1⟩ ⟨_, hc.2⟩) hF ((cond_iff ⟨_, hc.1⟩ ⟨_, hc.2⟩).mpr h0) hpre O W hO).trans (wp_mono frame _ _ fun _ => obl_post)
  · rw [show goTile m d c.val i.val = iprop(emp) from if_neg h0, show tdTile m d c.val i.val = iprop(emp) from if_neg h0]
    exact (tile_idle d (coordsV ⟨_, hc.1⟩ ⟨_, hc.2⟩) (fun h => h0 ((cond_iff ⟨_, hc.1⟩ ⟨_, hc.2⟩).mp h)) O W).trans (wp_mono frame _ _ fun _ => obl_post)

omit [FloatOps F] in
theorem bigSep_emp' {I : Type} (s : Finset I) : (bigSep s fun _ => iprop(emp)) = (iprop(emp) : sProp 𝕄) := bigSep_emp_const s

omit [FloatOps F] in
/-- Of a SparseCore's sixteen subcores only subcore 0 is handed anything: the sixteen shares are subcore 0's. -/
theorem tiles_eq (Φ : Fin 16 → sProp 𝕄) (h : ∀ i : Fin 16, i ≠ 0 → Φ i = iprop(emp)) :
    (bigSep Finset.univ fun i : Fin ((K (F := F)).nSub 0) => Φ i) = iprop(Φ 0 ∗ emp) := by
  show (bigSep (Finset.univ : Finset (Fin 16)) fun i => Φ i) = _
  rw [SparseCore.bigSep_erase' (Finset.mem_univ (0 : Fin 16)),
    bigSep_congr (s := (Finset.univ : Finset (Fin 16)).erase 0) (fun i hi => h i (Finset.mem_erase.mp hi).1), bigSep_emp']

theorem vecSplit : (K (F := F)).VecSplit' (P m) 0 := by
  intro d c
  show stCore m d c.val ⊢ |={Set.univ}=> iprop(
      (bigSep Finset.univ fun i : Fin ((K (F := F)).nSub 0) => goTile m d c.val i.val)
      ∗ ((bigSep Finset.univ fun i : Fin ((K (F := F)).nSub 0) => tdTile m d c.val i.val) -∗ dnCore m d c.val))
  have e1 : goTile m d c.val (0 : Fin 16).val = stCore m d c.val := by unfold goTile stCore; simp
  have e2 : tdTile m d c.val (0 : Fin 16).val = dnCore m d c.val := by unfold tdTile dnCore; simp
  rw [tiles_eq (F := F) (fun i => goTile m d c.val i.val) (fun i hi => if_neg fun h => hi (Fin.ext h.2)),
    tiles_eq (F := F) (fun i => tdTile m d c.val i.val) (fun i hi => if_neg fun h => hi (Fin.ext h.2))]
  dsimp only
  rw [e1, e2]
  iintro H; imodintro
  isplitl [H]
  · isplitl [H]; · iexact H
    iempintro
  · iintro ⟨H, -⟩; iexact H

/-! ## The launch element: the handshakes' rounds, the pipeline's cells, nothing of the gather's own -/

theorem cellOf_inj' : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What @main's proof starts from besides the launch's deal: the pipeline's staging cells and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ghost_regroup :
    iprop((bigSep Finset.univ fun c : Dev nD => bigSep Finset.univ fun p : Fin 1 => (Pipeline.cellsGhost (Pipeline.pin (pcfgs (F := F)) adm) EP p c : sProp 𝕄))
        ∗ (bigSep Finset.univ fun c : Dev nD => bigSep Finset.univ fun p : Fin 1 => (Pipeline.toksInit (Pipeline.pin (pcfgs (F := F)) adm) EP p c : sProp 𝕄)))
      ⊢ bigSep Finset.univ fun d : Dev nD => G (F := F) d := by
  rw [bigSep_congr (fun c _ => bigSep_univ_of_subsingleton (0 : Fin 1)), bigSep_congr (fun c _ => bigSep_univ_of_subsingleton (0 : Fin 1)), bigSep_sep']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP0, -⟩
  ihave HP := (Entails.of_eq (show (BI.own (((Emb.inl : Emb UP (UP × Counters)).trans embR)
      (initOf (Pipeline.cells (Pipeline.pin (pcfgs (F := F)) adm) cellOf_inj') (Pipeline.launchToks (Pipeline.pin (pcfgs (F := F)) adm) cellOf_inj'))) : sProp 𝕄)
      = BI.own ((EP : Emb UP (MM F)) (initOf (Pipeline.cells (Pipeline.pin (pcfgs (F := F)) adm) cellOf_inj') (Pipeline.launchToks (Pipeline.pin (pcfgs (F := F)) adm) cellOf_inj'))) from by unfold EP; rfl)) $$ HP0
  imod (Pipeline.fund_ghost (Pipeline.pin (pcfgs (F := F)) adm) EP cellOf_inj') $$ HP with HG
  imodintro
  isplitl [HH]; · iexact HH
  isplitl [HG]; · iapply ghost_regroup; iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's seven arrays. -/
abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev w0 : DevRef τ sig := Proc.devRef .tc (main_v0 : Ref sig .tc)
abbrev w1 : DevRef τ sig := Proc.devRef .tc (main_v1 : Ref sig .tc)
abbrev w2 : DevRef τ sig := Proc.devRef .tc (main_v2 : Ref sig .tc)
abbrev w3 : DevRef τ sig := Proc.devRef .tc (main_v3 : Ref sig .tc)

def bufs : Finset (DevRef τ sig) := (StableHlo.tcRefs τ sig).filter fun b => ¬ b.isScoped

omit [FloatOps F] in
theorem unscopedBufs_held (c : Dev nD) (Wv : Valuation τ sig (Elt F)) :
    (unscopedBufs c (fun b => Wv (Proc.devRef .tc b)) : sProp 𝕄) = held (T c) bufs Wv := by
  unfold unscopedBufs StableHlo.held bufs StableHlo.tcRefs
  rw [Finset.filter_map, BI.bigSep_map]
  rfl

abbrev pt (c : Dev nD) (b : DevRef τ sig) (f : Buf (Elt F) ((c, b) : Loc nD τ sig)) : sProp 𝕄 := ((c, b) : Loc nD τ sig) ↦{fullShare} f

omit [FloatOps F] in
theorem bufs_eq (c : Dev nD) (Wv : Valuation τ sig (Elt F)) : (held (T c) bufs Wv : sProp 𝕄)
    = iprop(pt c r0 (Wv r0) ∗ pt c r1 (Wv r1) ∗ pt c r2 (Wv r2) ∗ pt c w0 (Wv w0) ∗ pt c w1 (Wv w1) ∗ pt c w2 (Wv w2) ∗ pt c w3 (Wv w3)) := by
  unfold StableHlo.held
  rw [bigSep_eq_bigSepL_of_eq [r0, r1, r2, w0, w1, w2, w3] (by decide) (by decide)]
  rfl

/-- The two host operations between the gather and the region. -/
abbrev opT : HloOp τ sig (Elt F) :=
  StableHlo.unary main_arg0 main_v1 ((transpose S256x100x2000 [0, 2, 1] · transposes_S256x2000x100_S256x100x2000_0_2_1) : (⟨S256x2000x100, .f32⟩ : BufTy).Contents (Elt F) → (⟨S256x100x2000, .f32⟩ : BufTy).Contents (Elt F))
abbrev opR : HloOp τ sig (Elt F) := StableHlo.reshape main_v0 main_v2 rfl shapeCasts_S2000_S1x2000

/-- The launch valuation; after the gather, the row filled; after the transpose; after the reshape. -/
def V0 (d : Dev nD) : Valuation τ sig (Elt F) := fun b => m (d, b)
def V1 (d : Dev nD) : Valuation τ sig (Elt F) := Function.update (V0 m d) w0 (rowOf m d)
def V2 (d : Dev nD) : Valuation τ sig (Elt F) := (opT (F := F)).result (V1 m d)
def V3 (d : Dev nD) : Valuation τ sig (Elt F) := (opR (F := F)).result (V2 m d)

/-- The arrays as the region finds them. -/
def Vr (c : Dev nD) (b : Ref sig .tc) : Buf (Elt F) ((c.tc : Thread nD τ).loc b) := V3 m c (Proc.devRef .tc b)

/-! ### The region -/

theorem bigSep_none {M : Type} [URA M] (Φ : Fin 0 → sProp M) : bigSep Finset.univ Φ = (BI.emp : sProp M) :=
  bigSep_univ_eq_bigSepL [] (by decide) (by decide) Φ

omit [FloatOps F] in
/-- The pipeline has no prefetched table. -/
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The pairs the TensorCore may have recorded a wait at by the time it reaches the region: those at level 8 or below. -/
def lowPairs (c : Dev nD) : Set (SemLoc sig × HIx 1) := {p | (K (F := F)).lev ((c.tc : Thread nD τ), p.1) p.2 ≤ 8}

theorem bound_low (c : Dev nD) (t) : (dats (Vr m) 0 c).bound none t ⊆ lowPairs (F := F) c := by
  intro p hp
  rcases hp with hp | ⟨w, s, rfl⟩
  · exact hp
  · show (K (F := F)).lev _ none ≤ 8
    rw [SparseCore.Cfg.lev_none]; omega

/-- The pipelined mean as a region of @main: entered from the seven arrays as the host operations left them and the
    core owing nothing; it leaves the three windows' arrays at what the pipeline computes and the other four untouched. -/
def region : Pipeline.RegionSeg (pcfgs (F := F)) adm (dats (Vr m)) none defs₀ 𝒱₀ (K (F := F)).L (K (F := F)).lev 0 where
  win := Pipeline.WinFacts.to₀ _ launch1.win
  block_pos := launch1.block_pos
  stage_whole := launch1.stage_whole
  K := PEmpty
  osem k := k.elim
  ho := Pipeline.OwnSemFacts.none _
  hbody c := (body_obligation (Vr m) c).loose
  hwaits := Pipeline.hwaits_of_owed_zero _ _ _ _ _ _ 0 fun _ _ => rfl
  pre c := iprop(unscopedBufs c (Vr m c) ∗ Pipeline.owesWithin c 0 (lowPairs (F := F) c))
  post c := iprop((dats (Vr m) 0 c).arrays (fun w => (dats (Vr m) 0 c).arrAt w cfg1.N) ∗ Pipeline.unscopedRest spec1 c (Vr m c)
    ∗ Pipeline.owesWithin c 0 (lowPairs (F := F) c))
  X _ := iprop(emp)
  Y _ := iprop(emp)
  Z c := Pipeline.unscopedRest spec1 c (Vr m c)
  hentry c := by
    rw [prefHeld_emp]
    iintro ⟨⟨Hb, HO⟩, -, -⟩
    ihave H := (Pipeline.arrays_of_unscopedBufs (pcfgs (F := F)) adm (dats (Vr m)) launch1.win launch1.arr_whole c ((dats (Vr m) 0 c).share_full fun _ => rfl) (Vr m c) (fun w => A_eq (Vr m) c w)) $$ Hb
    icases H with ⟨Ha, Hr⟩
    imodintro
    isplitl [Ha]; · iexact Ha
    isplitr; · iempintro
    isplitl [HO]
    · iapply (Pipeline.owesWithin_mono c 0 (B := lowPairs (F := F) c) (B' := (dats (Vr m) 0 c).bound none 0) (fun p hp => Or.inl hp)); iexact HO
    isplitr; · iempintro
    iexact Hr
  hin c := by iintro -; iempintro
  hout c := by
    rw [Pipeline.ownSems0_none, scopedRest1_eq]
    iintro -
    isplitr; · iempintro
    isplitr <;> iempintro
  hexit c := by
    iintro ⟨Ha, HO, -, HZ⟩
    imodintro
    isplitl [Ha]; · iexact Ha
    isplitl [HZ]; · iexact HZ
    iapply (Pipeline.owesWithin_mono c 0 (bound_low m c _)); iexact HO

/-! ### The call's payloads, summed over the two SparseCores -/

theorem st0_eq (d : Dev nD) : (bigSep Finset.univ fun c : Fin ((K (F := F)).nCore 0) => (P m).st 0 d c) = iprop(gatherIn m d ∗ emp) := by
  show (bigSep (Finset.univ : Finset (Fin 2)) fun c => stCore m d c.val) = _
  rw [show (Finset.univ : Finset (Fin 2)) = {0, 1} by decide, SparseCore.bigSep_insert' (by decide), bigSep_singleton]
  show iprop(stCore m d 0 ∗ stCore m d 1) = _
  rw [show stCore m d 0 = gatherIn m d from if_pos rfl, show stCore m d 1 = iprop(emp) from if_neg Nat.one_ne_zero]
theorem dn0_eq (d : Dev nD) : (bigSep Finset.univ fun c : Fin ((K (F := F)).nCore 0) => (P m).dn 0 d c) = iprop(gatherOut m d ∗ emp) := by
  show (bigSep (Finset.univ : Finset (Fin 2)) fun c => dnCore m d c.val) = _
  rw [show (Finset.univ : Finset (Fin 2)) = {0, 1} by decide, SparseCore.bigSep_insert' (by decide), bigSep_singleton]
  show iprop(dnCore m d 0 ∗ dnCore m d 1) = _
  rw [show dnCore m d 0 = gatherOut m d from if_pos rfl, show dnCore m d 1 = iprop(emp) from if_neg Nat.one_ne_zero]

/-! ### The valuations, read at the arrays -/

omit [FloatOps F] in
theorem V1_w0 (d : Dev nD) : V1 m d w0 = rowOf m d := Function.update_self _ _ _
omit [FloatOps F] in
theorem V1_ne (d : Dev nD) {b : DevRef τ sig} (h : b ≠ w0) : V1 m d b = V0 m d b := Function.update_of_ne h _ _

theorem hT : (opT (F := F)).bufs ⊆ bufs := show ({r0, w1} : Finset (DevRef τ sig)) ⊆ bufs by decide
theorem hR : (opR (F := F)).bufs ⊆ bufs := show ({w0, w2} : Finset (DevRef τ sig)) ⊆ bufs by decide

/-- After the two host operations: the transposed embeddings, the row as `[1, 2000]`, the three arguments as launched. -/
theorem V3_w1 (d : Dev nD) : V3 m d w1 = transpose S256x100x2000 [0, 2, 1] (m (d, r0)) transposes_S256x2000x100_S256x100x2000_0_2_1 := by
  unfold V3 V2
  rw [(opR (F := F)).result_of_not_mem _ (b := w1) (show w1 ∉ ({w2} : Finset (DevRef τ sig)) by decide), StableHlo.unary_result',
    V1_ne m d (show r0 ≠ w0 by decide)]
  rfl
theorem V3_w2 (d : Dev nD) : V3 m d w2 = shapeCast S1x2000 (rowOf m d) shapeCasts_S2000_S1x2000 := by
  unfold V3 V2
  rw [StableHlo.reshape_result', (opT (F := F)).result_of_not_mem _ (b := w0) (show w0 ∉ ({w1} : Finset (DevRef τ sig)) by decide), V1_w0]
  rfl
theorem V3_r0 (d : Dev nD) : V3 m d r0 = m (d, r0) := by
  unfold V3 V2
  rw [(opR (F := F)).result_of_not_mem _ (b := r0) (show r0 ∉ ({w2} : Finset (DevRef τ sig)) by decide),
    (opT (F := F)).result_of_not_mem _ (b := r0) (show r0 ∉ ({w1} : Finset (DevRef τ sig)) by decide), V1_ne m d (show r0 ≠ w0 by decide)]
  rfl
theorem V3_r1 (d : Dev nD) : V3 m d r1 = m (d, r1) := by
  unfold V3 V2
  rw [(opR (F := F)).result_of_not_mem _ (b := r1) (show r1 ∉ ({w2} : Finset (DevRef τ sig)) by decide),
    (opT (F := F)).result_of_not_mem _ (b := r1) (show r1 ∉ ({w1} : Finset (DevRef τ sig)) by decide), V1_ne m d (show r1 ≠ w0 by decide)]
  rfl
theorem V3_r2 (d : Dev nD) : V3 m d r2 = m (d, r2) := by
  unfold V3 V2
  rw [(opR (F := F)).result_of_not_mem _ (b := r2) (show r2 ∉ ({w2} : Finset (DevRef τ sig)) by decide),
    (opT (F := F)).result_of_not_mem _ (b := r2) (show r2 ∉ ({w1} : Finset (DevRef τ sig)) by decide), V1_ne m d (show r2 ≠ w0 by decide)]
  rfl

theorem region_pre (d : Dev nD) : (region m).pre d = iprop(unscopedBufs d (Vr m d) ∗ Pipeline.owesWithin d 0 (lowPairs (F := F) d)) := rfl
theorem region_post (d : Dev nD) : (region m).post d = iprop((dats (Vr m) 0 d).arrays (fun w => (dats (Vr m) 0 d).arrAt w cfg1.N) ∗ Pipeline.unscopedRest spec1 d (Vr m d)
    ∗ Pipeline.owesWithin d 0 (lowPairs (F := F) d)) := rfl

omit [FloatOps F] in
/-- The TensorCore's state between calls gives up what it owes and takes it back. -/
theorem tcSt_open (d : Dev nD) (n : ℕ) :
    ((K (F := F)).tcSt EH d n : sProp 𝕄) ⊢ iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) := by
  unfold SparseCore.Cfg.tcSt
  iintro ⟨H, Hrest⟩
  isplitl [H]; · iexact H
  iintro H
  isplitl [H]; · iexact H
  iexact Hrest

omit [FloatOps F] in
theorem ctx_lev (κ : GSem nD τ sig → ℕ) : ((K (F := F)).ctx EH (P m) κ : sProp 𝕄) ⊢ levAts (K (F := F)).L (K (F := F)).lev := by
  unfold SparseCore.Cfg.ctx
  iintro ⟨H, -⟩; iexact H

/-- What @main leaves the claim: the three arguments as launched, and the result as the pipeline's data names it. -/
abbrev FIN (d : Dev nD) : sProp 𝕄 :=
  iprop((dats (Vr m) 0 d).arrays (fun w => (dats (Vr m) 0 d).arrAt w cfg1.N) ∗ Pipeline.unscopedRest spec1 d (Vr m d))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) bufs (V0 m d) from unscopedBufs_held d (V0 m d)]
  simp only [main, wp_bind, wp_pure]
  iintro ⟨#Hctx, Hst, ⟨Hb, Hheld, -, -⟩, ⟨Hcg, Htk⟩⟩
  ihave Hh := (Entails.of_eq (bufs_eq (F := F) d _)) $$ Hheld
  icases Hh with ⟨H0, H1, H2, Hw0, Hw1, Hw2, Hw3⟩
  iapply ((K (F := F)).wp_run (D (F := F)) 𝒱 (EH := EH) (P := P m) κ d 0) $$ [Hst H0 H1 H2 Hw0 Hw1 Hw2 Hw3 Hb Hcg Htk]
  isplitr; · iexact Hctx
  isplitl [Hst]; · iexact Hst
  isplitl [H1 H2 Hw0]
  · rw [st0_eq]
    isplitl [H1 H2 Hw0]
    · isplitl [H1]; · iexact H1
      isplitl [H2]; · iexact H2
      iexact Hw0
    · iempintro
  iintro ⟨Hst, Hdn⟩
  ihave Hdn' := (Entails.of_eq (dn0_eq m d)) $$ Hdn
  icases Hdn' with ⟨⟨H1, H2, Hw0⟩, -⟩
  -- the transpose, over the seven arrays with the row filled
  iapply (wp_hlo_within 𝒱 (SparseCore.T d) none Set.univ (op := opT) (S := bufs) hT (V := V1 m d)) $$ [Hb H0 H1 H2 Hw0 Hw1 Hw2 Hw3]
  · isplitl [Hb]; · iexact Hb
    rw [bufs_eq, V1_w0, V1_ne m d (show r0 ≠ w0 by decide), V1_ne m d (show r1 ≠ w0 by decide), V1_ne m d (show r2 ≠ w0 by decide),
      V1_ne m d (show w1 ≠ w0 by decide), V1_ne m d (show w2 ≠ w0 by decide), V1_ne m d (show w3 ≠ w0 by decide)]
    isplitl [H0]; · iexact H0
    isplitl [H1]; · iexact H1
    isplitl [H2]; · iexact H2
    isplitl [Hw0]; · iexact Hw0
    isplitl [Hw1]; · iexact Hw1
    isplitl [Hw2]; · iexact Hw2
    iexact Hw3
  iintro ⟨Hb, Hheld⟩
  rw [wp_ret]; imodintro
  -- the reshape
  iapply (wp_hlo_within 𝒱 (SparseCore.T d) none Set.univ (op := opR) (S := bufs) hR (V := V2 m d)) $$ [Hb Hheld]
  · isplitl [Hb]; · iexact Hb
    iexact Hheld
  iintro ⟨Hb, Hheld⟩
  rw [wp_ret]; imodintro
  -- the region: the core's debt (none, after the one call) goes in and comes back
  ihave Hlv := (ctx_lev m κ) $$ Hctx
  ihave Hst1 := (Entails.of_eq (show ((K (F := F)).tcSt EH d ((0 : Fin 1).val + 1) : sProp 𝕄) = (K (F := F)).tcSt EH d 1 from rfl)) $$ Hst
  ihave Hst' := (tcSt_open (F := F) d 1) $$ Hst1
  icases Hst' with ⟨⟨%W, %hW, HO⟩, Hback⟩
  rw [(K (F := F)).Otc_end d (le_refl 1)]
  have e : (Prog.lift (TpuEff.customCall (SparseCore.inner (Pipeline.entry 0)) ()) : Prog (TpuEff nD τ sig (Elt F) (SparseCore.Sig (ΛP (F := F)) 1) .tc) PUnit)
      = SparseCore.liftProg (Prog.op (TpuEff.customCall (Pipeline.entry 0) ()) Prog.ret) := rfl
  rw [e]
  iapply ((K (F := F)).wp_liftProg (D (F := F)) 𝒱 (SparseCore.T d) Set.univ none _ _)
  iapply (Pipeline.RegionSeg.wp (pcfgs (F := F)) adm (dats (Vr m)) none cellOf_inj' EP defs₀ 𝒱₀ (K (F := F)).L (K (F := F)).lev (region m) d none
    (fun u hu => nomatch hu) Prog.ret _) $$ [Hb Hheld HO Hback Hcg Htk]
  isplitl [Hback]
  · rw [region_post]
    iintro ⟨Hb, Ha, Hr, %W', %hW', HO⟩
    rw [wp_ret]; imodintro; imodintro
    isplitl [HO Hback]
    · iapply Hback
      iexists W'; isplitr
      · ipureintro; exact fun p hp => hW' hp
      · iexact HO
    isplitl [Ha]; · iexact Ha
    iexact Hr
  isplitl [Hb]; · iexact Hb
  isplitl [Hheld HO]
  · rw [region_pre]
    isplitl [Hheld]
    · iapply (Entails.of_eq (unscopedBufs_held (F := F) d (V3 m d)).symm); iexact Hheld
    · iexists W; isplitr
      · ipureintro; exact fun p hp => hW p hp
      · iexact HO
  isplitr; · iexact Hlv
  isplitl [Hcg]; · iexact Hcg
  iexact Htk

/-! ## Reading the claim off the final memory -/

def fq (d : Dev nD) (s' : Phys nD τ sig (Elt F)) : Prop :=
  s'.mem.mem ((d.tc : Thread nD τ).loc main_v3) = (dats (Vr m) 0 d).arrAt 2 cfg1.N
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)

theorem hfin (d : Dev nD) (s' : Phys nD τ sig (Elt F)) : iprop(FIN m d ∗ SI s') ⊢ (⌜fq m d s'⌝ : sProp 𝕄) := by
  iintro ⟨⟨Ha, Hr⟩, HSI⟩
  ihave H := (Pipeline.arrays_read (pcfgs (F := F)) adm (dats (Vr m)) launch1.arr_whole d ((dats (Vr m) 0 d).share_full fun _ => rfl) _ s') $$ [Ha HSI]
  · isplitl [Ha] <;> iassumption
  icases H with ⟨%ha, HSI⟩
  ihave Hr' := (Entails.of_eq (unscopedRest1_eq (Ix := HIx 1) (Val := Elt F) (Name := ℕ) (U := UU) (Lvl := ℕ) d (Vr m d))) $$ Hr
  icases Hr' with ⟨H0, H1, H2, -⟩
  ihave H := (persistent_entails_right (SI_pointsTo_agree (st := s') (ℓ := (d.tc : Thread nD τ).loc main_arg0) (I := Finset.univ) (q := fullShare))) $$ [HSI H0]
  · isplitl [HSI] <;> iassumption
  icases H with ⟨%h0, HSI, -⟩
  ihave H := (persistent_entails_right (SI_pointsTo_agree (st := s') (ℓ := (d.tc : Thread nD τ).loc main_arg1) (I := Finset.univ) (q := fullShare))) $$ [HSI H1]
  · isplitl [HSI] <;> iassumption
  icases H with ⟨%h1, HSI, -⟩
  ihave H := (SI_pointsTo_agree (st := s') (ℓ := (d.tc : Thread nD τ).loc main_arg2) (I := Finset.univ) (q := fullShare)) $$ [HSI H2]
  · isplitl [HSI] <;> iassumption
  icases H with %h2
  ipureintro
  refine ⟨ha 2, ?_, ?_, ?_⟩
  · exact (funext fun i => h0 i (Finset.mem_univ i)).trans (V3_r0 m d)
  · exact (funext fun i => h1 i (Finset.mem_univ i)).trans (V3_r1 m d)
  · exact (funext fun i => h2 i (Finset.mem_univ i)).trans (V3_r2 m d)

/-! ## The run -/

/-- The final memory: the result at what the pipeline's data computes, the three arguments as launched. -/
def QC : PUnit × MemSt nD τ sig (Elt F) → Prop := fun r => ∀ c : Dev nD,
  r.2.mem ((c.tc : Thread nD τ).loc main_v3) = (dats (Vr m) 0 c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run_main [∀ e, Nonempty (Elt F e)] (hpre : IdxOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.Proof.KB

end
-- ==== Proof.RefRun.lean ====
/-
  The reference program's @main as the list of its operations, and its run read back.

  @main computes, in order: the zero word; the sum of the embeddings over their last axis from that zero; the word of
  100 and its broadcast; the quotient (the mean); then the outlined `take` of the bias table at the index words —
  a word negative as a signed number has the table's length 128 added (the outlined `where`), the result is laid out
  as a column of one-entry index vectors, tested to lie in [0, 127] as a signed number, gathered from the table, and
  replaced by the not-a-number word where the test fails —; the row so taken is broadcast over the cells and added
  to the mean. The two outlined functions are listed inline over the buffers their one call names, so that @main is
  one straight line of thirty operations.

  `refTerm` is the composed function of the three arguments those thirty operations compute, written through named
  parts (`wrapIx`, `ixCol`, `inRange`, `takeRow`, `meanTerm`); `run` says every weakly fair execution of @main
  terminates with the result buffer at `refTerm` of the arguments' launch contents and the arguments unchanged.
-/
import proofs.«206730_g8289286881952_cont_9to1_m_1135_20_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty operations, in order, the two outlined functions unfolded at their calls: five for the mean,
    twenty-two for the `take` (the sixth of them the `where`'s select), three for the broadcast and the sum. -/
abbrev ops : List (HloOp τ sig (Elt F)) :=
  [ nullary main_cst (constant S_ .f32 0x00000000#32),
    binary main_arg0 main_cst main_v0 ((fun x v => Host.reduceAdd x v reducesTo_S256x2000x100_S256x2000_d2 h_S_) : (⟨S256x2000x100, .f32⟩ : BufTy).Contents (Elt F) → (⟨S_, .f32⟩ : BufTy).Contents (Elt F) → (⟨S256x2000, .f32⟩ : BufTy).Contents (Elt F)),
    nullary main_cst_0 (constant S_ .f32 0x42C80000#32),
    unary main_cst_0 main_v1 (broadcastInDim S256x2000 ![] bcast_S_S256x2000 : (⟨S_, .f32⟩ : BufTy).Contents (Elt F) → (⟨S256x2000, .f32⟩ : BufTy).Contents (Elt F)),
    binary main_v0 main_v1 main_v2 (Host.divf : (⟨S256x2000, .f32⟩ : BufTy).Contents (Elt F) → (⟨S256x2000, .f32⟩ : BufTy).Contents (Elt F) → (⟨S256x2000, .f32⟩ : BufTy).Contents (Elt F)),
    TRef.nullary main_call0.c (constantI S_ 32 0#32),
    TRef.unary main_call0.c main_call0.v0 (broadcastInDim S2000 ![] bcast_S_S2000),
    TRef.binary (.of main_arg1) main_call0.v0 main_call0.v1 (cmpi .slt),
    TRef.nullary main_call0.c_0 (constantI S_ 32 128#32),
    TRef.unary main_call0.c_0 main_call0.v2 (broadcastInDim S2000 ![] bcast_S_S2000),
    TRef.binary (.of main_arg1) main_call0.v2 main_call0.v3 addi,
    TRef.ternary main_call0.v1 main_call0.v3 (.of main_arg1) main_call0.call0.v0 select,
    TRef.unary main_call0.call0.v0 main_call0.v5 (broadcastInDim S2000x1 ![0] bcast_S2000_S2000x1_0),
    TRef.nullary main_call0.c_1 (constantI S1 32 127#32),
    TRef.nullary main_call0.c_2 (constantI S_ 32 0#32),
    TRef.unary main_call0.c_2 main_call0.v6 (broadcastInDim S2000x1 ![] bcast_S_S2000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2000x1 ![0, 1] bcast_S1x1_S2000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2000x1_S2000_d1 h_S_),
    TRef.binary (.of main_arg2) main_call0.v5 main_call0.v13 (fun x i => Host.gather gather_S128_S2000x1_S2000_n_0_n_n_0_1_1 x i),
    TRef.nullary main_call0.cst (constant S_ .f32 0x7FC00000#32),
    TRef.unary main_call0.cst main_call0.v14 (broadcastInDim S2000 ![] bcast_S_S2000),
    TRef.ternary main_call0.v12 main_call0.v13 main_call0.v14 main_call0.v15 select,
    unary main_v3 main_v4 (broadcastInDim S1x2000 ![1] bcast_S2000_S1x2000_1 : (⟨S2000, .f32⟩ : BufTy).Contents (Elt F) → (⟨S1x2000, .f32⟩ : BufTy).Contents (Elt F)),
    unary main_v4 main_v5 (broadcastInDim S256x2000 ![0, 1] bcast_S1x2000_S256x2000_0_1 : (⟨S1x2000, .f32⟩ : BufTy).Contents (Elt F) → (⟨S256x2000, .f32⟩ : BufTy).Contents (Elt F)),
    binary main_v2 main_v5 main_v6 (addf : (⟨S256x2000, .f32⟩ : BufTy).Contents (Elt F) → (⟨S256x2000, .f32⟩ : BufTy).Contents (Elt F) → (⟨S256x2000, .f32⟩ : BufTy).Contents (Elt F)) ]

-- thirty binds re-associated: the rewrite under the chain recurses once per statement
set_option maxRecDepth 1024 in
/-- @main is that straight line: the two functions' definitions unfolded at their calls and the call's record at its
    fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub .., unary_bufs_sub .., binary_bufs_sub ..⟩

/-! ## The composed term -/

/-- The index word as `take` wraps it: a word negative as a signed number has the table's length, 128, added;
    any other word is kept. -/
def wrapIx (ix : IVec S2000 32) : IVec S2000 32 :=
  select (cmpi .slt ix (broadcastInDim S2000 ![] bcast_S_S2000 (constantI S_ 32 0#32)))
    (addi ix (broadcastInDim S2000 ![] bcast_S_S2000 (constantI S_ 32 128#32))) ix

/-- The wrapped words as the gather's index array: per gene one index vector, of one entry. -/
def ixCol (ix : IVec S2000 32) : IVec S2000x1 32 :=
  broadcastInDim S2000x1 ![0] bcast_S2000_S2000x1_0 (wrapIx ix)

/-- Per gene, whether its wrapped word lies in [0, 127] as a signed number: the conjunction of the two comparisons,
    reduced over the index vector's one entry from the true bit. -/
def inRange (ix : IVec S2000 32) : IVec S2000 1 :=
  Host.reduce IntOp.andi
    (andi (cmpi .sge (ixCol ix) (broadcastInDim S2000x1 ![] bcast_S_S2000x1 (constantI S_ 32 0#32)))
      (cmpi .sle (ixCol ix)
        (broadcastInDim S2000x1 ![0, 1] bcast_S1x1_S2000x1_0_1 (broadcastInDim S1x1 ![1] bcast_S1_S1x1_1 (constantI S1 32 127#32)))))
    (constantI S_ 1 1#1) reducesTo_S2000x1_S2000_d1 h_S_

/-- The row `take` returns: per gene the table's entry gathered at its wrapped word where that word is in range,
    the not-a-number word elsewhere. -/
def takeRow (ix : IVec S2000 32) (b : FVec F S128 .f32) : FVec F S2000 .f32 :=
  select (inRange ix) (Host.gather gather_S128_S2000x1_S2000_n_0_n_n_0_1_1 b (ixCol ix))
    (broadcastInDim S2000 ![] bcast_S_S2000 (constant S_ .f32 0x7FC00000#32))

/-- The mean: the sum over the last axis from the zero word, divided by the word of 100 at every index. -/
def meanTerm (x : FVec F S256x2000x100 .f32) : FVec F S256x2000 .f32 :=
  Host.divf (Host.reduceAdd x (constant S_ .f32 0x00000000#32) reducesTo_S256x2000x100_S256x2000_d2 h_S_)
    (broadcastInDim S256x2000 ![] bcast_S_S256x2000 (constant S_ .f32 0x42C80000#32))

/-- What @main's thirty operations compute of its three arguments: the mean plus the taken row broadcast over the cells. -/
def refTerm (x : FVec F S256x2000x100 .f32) (ix : IVec S2000 32) (b : FVec F S128 .f32) : FVec F S256x2000 .f32 :=
  addf (meanTerm x)
    (broadcastInDim S256x2000 ![0, 1] bcast_S1x2000_S256x2000_0_1
      (broadcastInDim S1x2000 ![1] bcast_S2000_S1x2000_1 (takeRow ix b)))

/-! ## The run -/

set_option maxRecDepth 8192 in
/-- The operations' fold at the result buffer is `refTerm` of the contents at the three argument buffers: each
    operation's result at its own buffer is its function's value, at any other buffer what was there. -/
theorem out_eq (V : Valuation τ sig (Elt F)) :
    after ops V (main_v6 : DevRef τ sig)
      = refTerm (V (main_arg0 : DevRef τ sig)) (V (main_arg1 : DevRef τ sig)) (V (main_arg2 : DevRef τ sig)) := by
  unfold refTerm meanTerm takeRow inRange ixCol wrapIx
  after_results_simp
  -- what is left differs only by the typed references' transport along `rfl`, the identity
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of
    @main terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's composed term, read at the ideal values index by index: it is the specification's function.

  At cell `c` and gene `g` the term is the mean of the hundred components plus the taken row at `g`.
  The mean: the host's sum over the last axis from the zero word is zero plus the sum of the hundred components, and
  its quotient by the word of 100 — the real number 100, not zero — is the product with 1/100.
  The taken row, where every index word is below 128 as an unsigned number: such a word is non-negative as a signed
  number, so the wrap leaves it alone; it lies in [0, 127] as a signed number, so the range test is true at every
  gene and the selection keeps the gathered entry; and the gather reads the table at the word read signed and held to
  [0, 127], which for such a word is the word itself — the specification's bias row.
-/
import proofs.«206730_g8289286881952_cont_9to1_m_1135_20_alg».proof.Proof.RefRun
import proofs.«206730_g8289286881952_cont_9to1_m_1135_20_alg».proof.Proof.Spec
import Idealize.ShloMosaic.Lib.IdealHost
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefRun
open Idealize.ShloMosaic Idealize.ShloMosaic.ValueIdx Idealize.ShloMosaic.TcCoe Idealize.SL.Sem Idealize.ShloMosaic.StableHlo
open scoped BigOperators

/-! ## Words below 128 -/

/-- A 32-bit word below 128 as an unsigned number reads the same as a signed one. -/
theorem toInt_of_lt {v : BitVec 32} (h : v.toNat < 128) : v.toInt = (v.toNat : Int) :=
  BitVec.toInt_eq_toNat_of_lt (by omega)

/-- … and so its signed reading, taken back to a natural number, is its unsigned reading. -/
theorem toInt_toNat_of_lt {v : BitVec 32} (h : v.toNat < 128) : v.toInt.toNat = v.toNat := by
  rw [toInt_of_lt h]; simp

/-! ## The index array's indices -/

/-- The index of gene `g`'s one-entry index vector in the index array. -/
abbrev colIdx (g : S2000.Idx) : S2000x1.Idx :=
  fun a => match a with | ⟨0, _⟩ => ⟨(g 0).val, (g 0).isLt⟩ | ⟨1, _⟩ => ⟨0, Nat.one_pos⟩

/-- Every index of the index array is some gene's. -/
theorem eq_colIdx (i : S2000x1.Idx) : ∃ g : S2000.Idx, i = colIdx g := by
  refine ⟨ix1 (n := 2000) ⟨(i 0).val, (i 0).isLt⟩, ?_⟩
  funext a
  match a with
  | ⟨0, _⟩ => rfl
  | ⟨1, _⟩ =>
    refine Fin.ext ?_
    have h1 : (i 1).val < 1 := (i 1).isLt
    show (i 1).val = 0
    omega

/-! ## The wrap, the column, the range test -/

/-- The wrap leaves a word below 128 alone: it is not negative as a signed number. -/
theorem wrapIx_apply (ix : IVec S2000 32) (g : S2000.Idx) (h : (ix g).toNat < 128) : wrapIx ix g = ix g := by
  show Scalar.select (IntOp.cmpi .slt (ix g) 0#32) (IntOp.addi (ix g) 128#32) (ix g) = ix g
  have hc : ¬ IntOp.cmpi .slt (ix g) 0#32 = 1#1 := by
    rw [IntOp.cmpi_slt, toInt_of_lt h, show (0#32 : BitVec 32).toInt = 0 from by decide]; omega
  rw [eq_zero_of_ne_one hc, select_zero]

/-- A row laid out as a column of one-entry vectors reads, at gene `g`'s index, the row at `g`. -/
theorem colRead {α : Type} (r : S2000.Idx → α) (g : S2000.Idx) :
    broadcastInDim S2000x1 ![0] bcast_S2000_S2000x1_0 r (colIdx g) = r g :=
  broadcastInDim_apply ![0] bcast_S2000_S2000x1_0 r (colIdx g) g fun a => by
    match a with | ⟨0, _⟩ => rfl

/-- The index array at gene `g`'s index is the wrapped word of `g`. -/
theorem ixCol_apply (ix : IVec S2000 32) (g : S2000.Idx) : ixCol ix (colIdx g) = wrapIx ix g := by
  unfold ixCol
  exact colRead (wrapIx ix) g

/-- A left fold by `and` from the true bit over words that are all the true bit is the true bit. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l fun n hn => h n (List.mem_cons.2 (Or.inr hn))

/-- Where every index word is below 128, the range test is true at every gene. -/
theorem inRange_apply (ix : IVec S2000 32) (hix : ∀ g, (ix g).toNat < 128) (g : S2000.Idx) : inRange ix g = 1#1 := by
  unfold inRange
  rw [Host.reduce_eq_foldl]
  refine foldl_andi_one _ _ fun i _ => ?_
  obtain ⟨g', rfl⟩ := eq_colIdx i
  show IntOp.andi (IntOp.cmpi .sge (ixCol ix (colIdx g')) 0#32) (IntOp.cmpi .sle (ixCol ix (colIdx g')) 127#32) = 1#1
  rw [ixCol_apply, wrapIx_apply ix g' (hix g')]
  have hg := hix g'
  refine IntOp.andi_eq_one.2 ⟨IntOp.cmpi_sge.2 ?_, IntOp.cmpi_sle.2 ?_⟩
  · rw [toInt_of_lt hg, show (0#32 : BitVec 32).toInt = 0 from by decide]; omega
  · rw [toInt_of_lt hg, show (127#32 : BitVec 32).toInt = 127 from by decide]; omega

/-! ## The gather -/

/-- The gather read at gene `g`: the table at the start index of `g`'s index vector, read signed and held to [0, 127]. -/
theorem gather_apply {α : Type} {w : Nat} (b : S128.Idx → α) (idx : IVec S2000x1 w) (g : S2000.Idx) :
    Host.gather gather_S128_S2000x1_S2000_n_0_n_n_0_1_1 b idx g
      = b (ix1 (n := 128) ⟨min (idx (colIdx g)).toInt.toNat 127, by omega⟩) := by
  unfold Host.gather
  congr 1
  funext a
  obtain rfl : a = 0 := Subsingleton.elim _ _
  refine Fin.ext ?_
  show gather_S128_S2000x1_S2000_n_0_n_n_0_1_1.start g idx 0 + gather_S128_S2000x1_S2000_n_0_n_n_0_1_1.batchCoord g 0
      + gather_S128_S2000x1_S2000_n_0_n_n_0_1_1.offCoord g 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S2000x1_S2000_n_0_n_n_0_1_1.startIndexMap from List.mem_singleton.mpr rfl)]
  have hsi : gather_S128_S2000x1_S2000_n_0_n_n_0_1_1.siIdx g
      ⟨List.idxOf (0 : Fin 1) gather_S128_S2000x1_S2000_n_0_n_n_0_1_1.startIndexMap,
        List.idxOf_lt_length_iff.2 (List.mem_singleton.mpr rfl)⟩ = colIdx g := by
    funext c; refine Fin.ext ?_
    match c with
    | ⟨0, _⟩ => rfl
    | ⟨1, _⟩ => rfl
  rw [hsi]
  rfl

/-- Where every index word is below 128, the taken row is the specification's bias row — at any float values. -/
theorem takeRow_apply {F : FTy → Type} [FloatOps F] (ix : IVec S2000 32) (b : FVec F S128 .f32)
    (hix : ∀ g, (ix g).toNat < 128) (g : S2000.Idx) : takeRow ix b g = Cert.Spec.biasRow ix b g := by
  unfold takeRow
  rw [select_apply, inRange_apply ix hix g, select_one, gather_apply]
  unfold Cert.Spec.biasRow
  -- the two table indices are one: the start index is the word itself, and its signed reading is its unsigned one
  exact congrArg b (congrArg (ix1 (n := 128)) (Fin.ext (by
    show min (ixCol ix (colIdx g)).toInt.toNat 127 = min (ix g).toNat 127
    rw [ixCol_apply, wrapIx_apply ix g (hix g), toInt_toNat_of_lt (hix g)])))

/-! ## The mean -/

/-- The word of 100 is the real number 100. -/
theorem ofBits_100 : Ideal.ofBits .f32 0x42C80000#32 = ((100 : ℝ) : EReal) := by
  simp [Ideal.ofBits, Ideal.ieee, -EReal.coe_mul]; norm_num

/-- The mean at cell `j 0`, gene `j 1`: the sum of the hundred components times 1/100. -/
theorem meanTerm_apply (x : FVec Ideal S256x2000x100 .f32) (j : S256x2000.Idx) :
    meanTerm (F := Ideal) x j
      = (∑ e : Fin 100, x (ix3 (n0 := 256) (n1 := 2000) (j 0) (j 1) e)) * ((1 / 100 : ℝ) : EReal) := by
  have hR : S256x2000x100.Reduces [2] S256x2000 := by decide
  show Ideal.div (Ideal.hostReduceAdd reducesTo_S256x2000x100_S256x2000_d2 x (Ideal.ofBits .f32 0x00000000#32) j)
      (Ideal.ofBits .f32 0x42C80000#32) = _
  rw [Ideal.hostReduceAdd_single _ hR, Ideal.ofBits_zero_f32, zero_add, ofBits_100, Ideal.div_coe (by norm_num)]
  refine congrArg (· * ((1 / 100 : ℝ) : EReal)) ?_
  refine Finset.sum_congr rfl fun k _ => congrArg x ?_
  funext a
  refine Fin.ext ?_
  match a with
  | ⟨0, _⟩ => rfl
  | ⟨1, _⟩ => rfl
  | ⟨2, _⟩ => rfl

/-! ## The row broadcast over the cells -/

/-- A row laid out as one row of a matrix and broadcast down the cells reads, at cell `j 0` and gene `j 1`, the row at `j 1`. -/
theorem bcastRow_apply {α : Type} (r : S2000.Idx → α) (j : S256x2000.Idx) :
    broadcastInDim S256x2000 ![0, 1] bcast_S1x2000_S256x2000_0_1 (broadcastInDim S1x2000 ![1] bcast_S2000_S1x2000_1 r) j
      = r (ix1 (n := 2000) (j 1)) := by
  refine (broadcastInDim_apply ![0, 1] bcast_S1x2000_S256x2000_0_1 _ j (ix2 (n0 := 1) (n1 := 2000) 0 (j 1)) fun a => ?_).trans ?_
  · match a with
    | ⟨0, _⟩ => rfl
    | ⟨1, _⟩ => rfl
  · exact broadcastInDim_apply ![1] bcast_S2000_S1x2000_1 r (ix2 (n0 := 1) (n1 := 2000) 0 (j 1)) (ix1 (n := 2000) (j 1)) fun a => by
      match a with | ⟨0, _⟩ => rfl

/-! ## The term is the specification's function -/

/-- Where every index word is below 128 as an unsigned number, the reference's composed term at the ideal values is the
    specification's function of the three arguments. -/
theorem refTerm_eq_G (x : FVec Ideal S256x2000x100 .f32) (ix : IVec S2000 32) (b : FVec Ideal S128 .f32)
    (hix : ∀ g, (ix g).toNat < 128) : refTerm (F := Ideal) x ix b = Cert.Spec.G x ix b := by
  funext j
  show meanTerm (F := Ideal) x j
      + broadcastInDim S256x2000 ![0, 1] bcast_S1x2000_S256x2000_0_1
          (broadcastInDim S1x2000 ![1] bcast_S2000_S1x2000_1 (takeRow ix b)) j = _
  rw [meanTerm_apply, bcastRow_apply, takeRow_apply ix b hix]
  rfl

/-- The reference's run at the ideal values, from any memory whose index words are all below 128: every weakly fair
    execution of @main terminates with the result buffer at the specification's function of the arguments' launch
    contents, and the arguments unchanged. -/
theorem run_G (m' : (ℓ : Loc nD τ sig) → Buf (Elt Ideal) ℓ) (g' : Dev nD → PrngReg)
    (hix : ∀ (c : Dev nD) g, ((m' ((c.tc : Thread nD τ).loc main_arg1)) g).toNat < 128) :
    θ_run (defs (F := Ideal)) (onTc (τ := τ) (main (F := Ideal))) ⟨m', fun _ => 0, g'⟩ fun r => ∀ c : Dev nD,
      r.2.mem ((c.tc : Thread nD τ).loc main_v6)
          = Cert.Spec.G (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c => ⟨(h c).1.trans (refTerm_eq_G _ _ _ (hix c)), (h c).2⟩) (RefRun.run m' g')

end Cert.ReferenceIdeal.RefValue

end
-- ==== Proof.PreIdx.lean ====
/-
  What the printed precondition says of the index words.

  The precondition is the conjunction of three `all` tests: the embeddings finite, the bias table finite, and every
  index word in [0, 127] as a signed number. Where it holds, the third conjunct read back at a gene says that gene's word,
  read signed, lies between 0 and 127; a 32-bit word that is non-negative as a signed number reads the same unsigned,
  so the word is below 128 as an unsigned number — which is how the bias table is addressed.
-/
import proofs.«206730_g8289286881952_cont_9to1_m_1135_20_alg».proof.Proof.Gen.Pre_input_domain
import Idealize.ShloMosaic.Lib.ReduceAll
import Idealize.ShloMosaic.Lib.ValueIdx

namespace Cert.PreIdx

open Idealize.ShloMosaic Idealize.ShloMosaic.ValueIdx

/-- The scalar shape has one index. -/
instance : Subsingleton Cert.Pre_input_domain.S_.Idx := ⟨fun a b => funext fun d => d.elim0⟩

/-- A 32-bit word between 0 and 127 as a signed number is below 128 as an unsigned one. -/
theorem toNat_lt_of_signed_range (v : BitVec 32) (h0 : (0#32 : BitVec 32).toInt ≤ v.toInt)
    (h1 : v.toInt ≤ (127#32 : BitVec 32).toInt) : v.toNat < 128 := by
  rw [show (0#32 : BitVec 32).toInt = 0 from by decide] at h0
  rw [show (127#32 : BitVec 32).toInt = 127 from by decide] at h1
  have hx := BitVec.toInt_eq_toNat_cond v
  have hlt := v.isLt
  split at hx <;> omega

/-- Under the precondition every index word is below 128 as an unsigned number. -/
theorem idx_lt_of_pre {F : FTy → Type} [FloatOps F] [Cert.Pre_input_domain.Facts]
    (a0 : FVec F Cert.Pre_input_domain.S256x2000x100 .f32) (a1 : IVec Cert.Pre_input_domain.S2000 32)
    (a2 : FVec F Cert.Pre_input_domain.S128 .f32)
    (h : Cert.Pre_input_domain.fn (F := F) a0 a1 a2 = fun _ => 1#1) : ∀ g, (a1 g).toNat < 128 := by
  intro g
  have h0 := congrFun h ValueIdx.ix0
  dsimp only [Cert.Pre_input_domain.fn] at h0
  -- the outer conjunction: (finite embeddings ∧ finite table) ∧ indices in range
  obtain ⟨-, hall⟩ := IntOp.andi_eq_one.1 h0
  -- the `all` over the genes, read back at gene g
  have hg := Host.reduce_andi_all _ _ _ _ _ hall g
  obtain ⟨hge, hle⟩ := IntOp.andi_eq_one.1 hg
  exact toNat_lt_of_signed_range (a1 g) (IntOp.cmpi_sge.1 hge) (IntOp.cmpi_sle.1 hle)

end Cert.PreIdx
-- ==== Proof.lean ====
/-
  The kernel against its reference: per cell and gene, the mean of 100 embedding components plus the gene's bias.

  THE TWO PROGRAMS. The kernel first gathers the bias row on one vector subcore — gene `g` takes the entry of the
  128-entry table that its index word names (every word is below 128 by the precondition, so every read is in range and
  the subcore's check passes) —, then on the TensorCore transposes the embeddings to `[cell, component, gene]`, views the
  row as `[1, 2000]`, and runs a pipeline of 32 points: point `t` sums the 100 components of cells `8t … 8t+7`, scales
  each sum by the constant that stands for 1/100 and adds the gene's bias. The reference divides the same sums by 100
  and adds `take(bias, index)`: the index wrapped if negative (it is not), the read masked by an in-range test (which
  holds), so again the table at the word.

  WHY THEY AGREE AT THE IDEAL INSTANCE. A sum of extended reals does not depend on the order or grouping of its terms;
  the quotient by the real 100 IS the product with the real 1/100 on every extended real; and the named constant
  denotes exactly 1/100. So both results are the one function `Cert.Spec.G` of the three argument arrays. No step uses
  that the inputs are finite; the precondition is used only for the index range.

  THE FRAMES. Every thread of the device terminates: thirty-one subcores return at once, one copies, loops 125 times and
  copies back, each wait on a transfer it has itself just started; the sequencers and the TensorCore follow the launch
  protocol; the pipeline's transfers are the pipeline library's. The three argument arrays are only ever read.
-/
import proofs.«206730_g8289286881952_cont_9to1_m_1135_20_alg».proof.Defs
import proofs.«206730_g8289286881952_cont_9to1_m_1135_20_alg».proof.Proof.Gen.Kernel
import proofs.«206730_g8289286881952_cont_9to1_m_1135_20_alg».proof.Proof.Gen.KernelIdeal
import proofs.«206730_g8289286881952_cont_9to1_m_1135_20_alg».proof.Proof.Gen.ReferenceIdeal
import proofs.«206730_g8289286881952_cont_9to1_m_1135_20_alg».proof.Proof.Gen.Pre_input_domain
import proofs.«206730_g8289286881952_cont_9to1_m_1135_20_alg».proof.Proof.KI.Launch
import proofs.«206730_g8289286881952_cont_9to1_m_1135_20_alg».proof.Proof.KI.Value
import proofs.«206730_g8289286881952_cont_9to1_m_1135_20_alg».proof.Proof.KB.Launch
import proofs.«206730_g8289286881952_cont_9to1_m_1135_20_alg».proof.Proof.RefRun
import proofs.«206730_g8289286881952_cont_9to1_m_1135_20_alg».proof.Proof.RefValue
import proofs.«206730_g8289286881952_cont_9to1_m_1135_20_alg».proof.Proof.PreIdx
import Idealize.ShloMosaic.Adequacy
import Idealize.ShloMosaic.Init
import Idealize.ShloMosaic.PureOps.IdealRules

noncomputable section

namespace Cert.Proof

open Idealize.ShloMosaic Idealize.SL.Sem

/-! ## The precondition gives the index range -/

theorem idxOK_ideal (m : (ℓ : Loc Cert.KernelIdeal.nD Cert.KernelIdeal.τ Cert.KernelIdeal.sig) → Buf (Elt Ideal) ℓ) (h : Cert.Pre_KernelIdeal m) :
    KI.IdxOK m := fun d g => Cert.PreIdx.idx_lt_of_pre _ _ _ (h d) g

theorem idxOK_bits (m : (ℓ : Loc Cert.Kernel.nD Cert.Kernel.τ Cert.Kernel.sig) → Buf (Elt Bits) ℓ) (h : Cert.Pre_Kernel m) :
    KB.IdxOK m := fun d g => Cert.PreIdx.idx_lt_of_pre _ _ _ (h d) g

/-! ## The frames: each program's run with the values dropped -/

theorem frame_kernel : Cert.frame_Kernel := fun m ρ hpre =>
  (θ_run Cert.Kernel.defs _ _).mono (fun _ h c => (h c).2) (KB.run_main (F := Bits) m ρ (idxOK_bits m hpre))

theorem frame_kernelIdeal : Cert.frame_KernelIdeal := fun m ρ hpre =>
  (θ_run Cert.KernelIdeal.defs _ _).mono (fun _ h c => (h c).2) (KI.run_main (F := Ideal) m ρ (idxOK_ideal m hpre))

theorem frame_referenceIdeal : Cert.frame_ReferenceIdeal := fun m ρ _ =>
  (θ_run Cert.ReferenceIdeal.defs _ _).mono (fun _ h c => (h c).2) (Cert.ReferenceIdeal.RefRun.run (F := Ideal) m ρ)

/-! ## The one ledger entry: the named constant is 1/100 -/

theorem preserves : Cert.preserves_Kernel_KernelIdeal :=
  IdealRules.named_const.statement Cert.KernelIdeal.κ "inv_100" .f32 0x3C23D70A#32 ((1 / 100 : ℝ) : EReal) rfl

/-! ## The value -/

/-- What the pipeline leaves in the result array is the specification's function of the launch arrays: the blocks join
    to the mean of the transposed embeddings plus the reshaped row, and the transpose and the reshape are undone index by
    index. -/
theorem value_eq (m : (ℓ : Loc Cert.KernelIdeal.nD Cert.KernelIdeal.τ Cert.KernelIdeal.sig) → Buf (Elt Ideal) ℓ) (c : Dev Cert.KernelIdeal.nD) :
    (KI.dats (KI.Vr m) 0 c).arrAt 2 Cert.KernelIdeal.cfg1.N
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [KI.final (KI.Vr m) c]
  have e1 : KI.Vr m c Cert.KernelIdeal.main_v1 = _ := KI.V3_w1 m c
  have e2 : KI.Vr m c Cert.KernelIdeal.main_v2 = _ := KI.V3_w2 m c
  rw [e1, e2]
  exact KI.meanRows_G _ _ _

theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (value_eq m c), (h c).2⟩)
      (KI.run_main (F := Ideal) m ρ (idxOK_ideal m hpre))
  · have hix : ∀ (c : Dev Cert.ReferenceIdeal.nD) g, ((m' ((c.tc : Thread Cert.ReferenceIdeal.nD Cert.ReferenceIdeal.τ).loc Cert.ReferenceIdeal.main_arg1)) g).toNat < 128 := by
      intro c g
      rw [(hagree c).2.1]
      exact idxOK_ideal m hpre c g
    refine (θ_run Cert.ReferenceIdeal.defs _ _).mono (fun _ h c => ⟨(h c).1.trans ?_, (h c).2⟩) (Cert.ReferenceIdeal.RefValue.run_G m' ρ' hix)
    rw [(hagree c).1, (hagree c).2.1, (hagree c).2.2]

theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, preserves, algebraic⟩

end Cert.Proof

end
